-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x128 : Shape := ⟨3, ![2048, 256, 128]⟩
abbrev S2048x768 : Shape := ⟨2, ![2048, 768]⟩
abbrev S32768x768 : Shape := ⟨2, ![32768, 768]⟩
abbrev S32768 : Shape := ⟨1, ![32768]⟩
abbrev S128 : Shape := ⟨1, ![128]⟩
abbrev S_ : Shape := ⟨0, ![]⟩

class Facts : Prop where
  bcast_S_S2048x256x128 : S_.BroadcastsInDim S2048x256x128 (![] : Fin 0 → Fin S2048x256x128.rank)
  reducesTo_S2048x256x128_S_d0_1_2 : S2048x256x128.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S32768x768 : S_.BroadcastsInDim S32768x768 (![] : Fin 0 → Fin S32768x768.rank)
  reducesTo_S32768x768_S_d0_1 : S32768x768.ReducesTo [0, 1] S_
  bcast_S_S32768 : S_.BroadcastsInDim S32768 (![] : Fin 0 → Fin S32768.rank)
  reducesTo_S32768_S_d0 : S32768.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2048x256x128 .f32) (main_arg1 : FVec F S2048x768 .f32) (main_arg2 : FVec F S32768x768 .f32) (main_arg3 : FVec F S32768 .f32) (main_arg4 : FVec F S128 .f32) : IVec S_ 1 :=
  let main_v0 : FVec F S2048x256x128 .f32 := Host.absf main_arg0
  let main_cst : FVec F S_ .f32 := constant S_ .f32 0x7F800000#32
  let main_v1 : FVec F S2048x256x128 .f32 := broadcastInDim S2048x256x128 ![] bcast_S_S2048x256x128 main_cst
  let main_v2 : IVec S2048x256x128 1 := cmpf .olt main_v0 main_v1
  let main_c : IVec S_ 1 := constantI S_ 1 1#1
  let main_v3 : IVec S_ 1 := (fun x v => Host.reduce IntOp.andi x v reducesTo_S2048x256x128_S_d0_1_2 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S32768x768 .f32 := Host.absf main_arg2
  let main_cst_2 : FVec F S_ .f32 := constant S_ .f32 0x7F800000#32
  let main_v10 : FVec F S32768x768 .f32 := broadcastInDim S32768x768 ![] bcast_S_S32768x768 main_cst_2
  let main_v11 : IVec S32768x768 1 := cmpf .olt main_v9 main_v10
  let main_c_3 : IVec S_ 1 := constantI S_ 1 1#1
  let main_v12 : IVec S_ 1 := (fun x v => Host.reduce IntOp.andi x v reducesTo_S32768x768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_v13 main_v16
-- ==== Kernel.lean ====
abbrev S2048x256x128 : Shape := ⟨3, ![2048, 256, 128]⟩
abbrev S2048x768 : Shape := ⟨2, ![2048, 768]⟩
abbrev S32768x768 : Shape := ⟨2, ![32768, 768]⟩
abbrev S32768 : Shape := ⟨1, ![32768]⟩
abbrev S128 : Shape := ⟨1, ![128]⟩
abbrev S768x32768 : Shape := ⟨2, ![768, 32768]⟩
abbrev S1x32768 : Shape := ⟨2, ![1, 32768]⟩
abbrev S2048x32768 : Shape := ⟨2, ![2048, 32768]⟩
abbrev S256x768 : Shape := ⟨2, ![256, 768]⟩
abbrev S768x2048 : Shape := ⟨2, ![768, 2048]⟩
abbrev S1x2048 : Shape := ⟨2, ![1, 2048]⟩
abbrev S256x2048 : Shape := ⟨2, ![256, 2048]⟩
abbrev S2048x16384 : Shape := ⟨2, ![2048, 16384]⟩
abbrev S2048x128x128 : Shape := ⟨3, ![2048, 128, 128]⟩
abbrev S1x1x128 : Shape := ⟨3, ![1, 1, 128]⟩
abbrev S16x256x128 : Shape := ⟨3, ![16, 256, 128]⟩
abbrev S16x128x128 : Shape := ⟨3, ![16, 128, 128]⟩
abbrev S16x128 : Shape := ⟨2, ![16, 128]⟩
abbrev S16x1x128 : Shape := ⟨3, ![16, 1, 128]⟩
abbrev S16x256 : Shape := ⟨2, ![16, 256]⟩
abbrev S16x256x1 : Shape := ⟨3, ![16, 256, 1]⟩

abbrev nBuf : Space → Nat
  | .hbm => 14
  | .vmem => 17
  | .smem => 0
  | _ => 0

abbrev bufTy : (tb : Table) → Fin (tcTables nBuf tb) → BufTy
  | .hbm, ⟨0, _⟩ => ⟨S2048x256x128, .f32⟩
  | .hbm, ⟨1, _⟩ => ⟨S2048x768, .f32⟩
  | .hbm, ⟨2, _⟩ => ⟨S32768x768, .f32⟩
  | .hbm, ⟨3, _⟩ => ⟨S32768, .f32⟩
  | .hbm, ⟨4, _⟩ => ⟨S128, .f32⟩
  | .hbm, ⟨5, _⟩ => ⟨S768x32768, .f32⟩
  | .hbm, ⟨6, _⟩ => ⟨S1x32768, .f32⟩
  | .hbm, ⟨7, _⟩ => ⟨S2048x32768, .f32⟩
  | .hbm, ⟨8, _⟩ => ⟨S2048x16384, .f32⟩
  | .hbm, ⟨9, _⟩ => ⟨S2048x128x128, .f32⟩
  | .hbm, ⟨10, _⟩ => ⟨S2048x16384, .f32⟩
  | .hbm, ⟨11, _⟩ => ⟨S2048x128x128, .f32⟩
  | .hbm, ⟨12, _⟩ => ⟨S1x1x128, .f32⟩
  | .hbm, ⟨13, _⟩ => ⟨S2048x256x128, .f32⟩
  | .local _ .vmem, ⟨0, _⟩ => ⟨S256x768, .f32⟩
  | .local _ .vmem, ⟨1, _⟩ => ⟨S256x768, .f32⟩
  | .local _ .vmem, ⟨2, _⟩ => ⟨S768x2048, .f32⟩
  | .local _ .vmem, ⟨3, _⟩ => ⟨S768x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S16x256x128, .f32⟩
  | .local _ .vmem, ⟨9, _⟩ => ⟨S16x256x128, .f32⟩
  | .local _ .vmem, ⟨10, _⟩ => ⟨S16x128x128, .f32⟩
  | .local _ .vmem, ⟨11, _⟩ => ⟨S16x128x128, .f32⟩
  | .local _ .vmem, ⟨12, _⟩ => ⟨S16x128x128, .f32⟩
  | .local _ .vmem, ⟨13, _⟩ => ⟨S16x128x128, .f32⟩
  | .local _ .vmem, ⟨14, _⟩ => ⟨S1x1x128, .f32⟩
  | .local _ .vmem, ⟨15, _⟩ => ⟨S16x256x128, .f32⟩
  | .local _ .vmem, ⟨16, _⟩ => ⟨S16x256x128, .f32⟩
  | _, _ => ⟨S2048x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S32768x768_S768x32768_1_0 : S32768x768.Transposes [1, 0] S768x32768
  shapeCasts_S32768_S1x32768 : S32768.ShapeCasts S1x32768
  inb_S256x768_S256x768_0_0 : ∀ a, (![0, 0] : Fin 2 → Nat) a + S256x768.size a ≤ S256x768.size a
  h_S256x768 : 0 < S256x768.numel
  bitsLt_bf16_f32 : FTy.bits .bf16 < FTy.bits .f32
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  slices_S2048x32768_S2048x16384_0_0 : S2048x32768.Slices ![0, 0] S2048x16384
  shapeCasts_S2048x16384_S2048x128x128 : S2048x16384.ShapeCasts S2048x128x128
  slices_S2048x32768_S2048x16384_0_16384 : S2048x32768.Slices ![0, 16384] S2048x16384
  shapeCasts_S128_S1x1x128 : S128.ShapeCasts S1x1x128
  inb_S16x256x128_S16x256x128_0_0_0 : ∀ a, (![0, 0, 0] : Fin 3 → Nat) a + S16x256x128.size a ≤ S16x256x128.size a
  h_S16x256x128 : 0 < S16x256x128.numel
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reduces_S16x128x128_S16x128 : S16x128x128.Reduces [1] S16x128
  shapeCasts_S16x128_S16x1x128 : S16x128.ShapeCasts S16x1x128
  broadcasts_S16x1x128_S16x128x128 : S16x1x128.Broadcasts S16x128x128
  reduces_S16x256x128_S16x256 : S16x256x128.Reduces [2] S16x256
  shapeCasts_S16x256_S16x256x1 : S16x256.ShapeCasts S16x256x1
  broadcasts_S16x256x1_S16x256x128 : S16x256x1.Broadcasts S16x256x128
  broadcasts_S1x1x128_S16x256x128 : S1x1x128.Broadcasts S16x256x128
  dot_S256x768_S768x2048_S256x2048_1_0_0_1_n_n_wf : DotDims.WF S256x768 S768x2048 S256x2048 [1] [0] [0] [1] [] []
  dot_S16x256x128_S16x128x128_S16x256x128_2_1_1_2_0_0_wf : DotDims.WF S16x256x128 S16x128x128 S16x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S2048x768.size a
  hwx0_0 : ∀ i : grid0.Coords, EltTy.bits .f32 = 32 ∨ (Rect.block (s := S2048x768) S256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x2048.size a ≤ S768x32768.size a
  hwx0_1 : ∀ i : grid0.Coords, EltTy.bits .f32 = 32 ∨ (Rect.block (s := S768x32768) S768x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x32768.size a
  hwx0_2 : ∀ i : grid0.Coords, EltTy.bits .f32 = 32 ∨ (Rect.block (s := S1x32768) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x32768.size a
  hwx0_3 : ∀ i : grid0.Coords, EltTy.bits .f32 = 32 ∨ (Rect.block (s := S2048x32768) S256x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x128.size a ≤ S2048x256x128.size a
  hwx1_0 : ∀ i : grid1.Coords, EltTy.bits .f32 = 32 ∨ (Rect.block (s := S2048x256x128) S16x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x128.size a ≤ S2048x128x128.size a
  hwx1_1 : ∀ i : grid1.Coords, EltTy.bits .f32 = 32 ∨ (Rect.block (s := S2048x128x128) S16x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128x128.size a ≤ S2048x128x128.size a
  hwx1_2 : ∀ i : grid1.Coords, EltTy.bits .f32 = 32 ∨ (Rect.block (s := S2048x128x128) S16x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S1x1x128.size a
  hwx1_3 : ∀ i : grid1.Coords, EltTy.bits .f32 = 32 ∨ (Rect.block (s := S1x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x256x128.size a ≤ S2048x256x128.size a
  hwx1_4 : ∀ i : grid1.Coords, EltTy.bits .f32 = 32 ∨ (Rect.block (s := S2048x256x128) S16x256x128.size (cc1_transform_4 i) (hinb1_4 i)).WholeWords (EltTy.packing .f32)

variable [Facts₀]

def dot_S256x768_S768x2048_S256x2048_1_0_0_1_n_n : DotDims S256x768 S768x2048 S256x2048 where
  lhsContracting := [1]
  rhsContracting := [0]
  lhsNonContracting := [0]
  rhsNonContracting := [1]
  lhsBatch := []
  rhsBatch := []
  wf := dot_S256x768_S768x2048_S256x2048_1_0_0_1_n_n_wf
def dot_S16x256x128_S16x128x128_S16x256x128_2_1_1_2_0_0 : DotDims S16x256x128 S16x128x128 S16x256x128 where
  lhsContracting := [2]
  rhsContracting := [1]
  lhsNonContracting := [1]
  rhsNonContracting := [2]
  lhsBatch := [0]
  rhsBatch := [0]
  wf := dot_S16x256x128_S16x128x128_S16x256x128_2_1_1_2_0_0_wf

abbrev win0_0 : Pipeline.Window sig grid0 :=
  Pipeline.Window.ofSpec (Memref.whole main_arg1) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S16x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S16x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S16x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x256x128 : Shape := ⟨3, ![2048, 256, 128]⟩
abbrev S2048x768 : Shape := ⟨2, ![2048, 768]⟩
abbrev S32768x768 : Shape := ⟨2, ![32768, 768]⟩
abbrev S32768 : Shape := ⟨1, ![32768]⟩
abbrev S128 : Shape := ⟨1, ![128]⟩
abbrev S768x32768 : Shape := ⟨2, ![768, 32768]⟩
abbrev S2048x32768 : Shape := ⟨2, ![2048, 32768]⟩
abbrev S1x32768 : Shape := ⟨2, ![1, 32768]⟩
abbrev S2048x16384 : Shape := ⟨2, ![2048, 16384]⟩
abbrev S2048x128x128 : Shape := ⟨3, ![2048, 128, 128]⟩
abbrev S_ : Shape := ⟨0, ![]⟩
abbrev S2048x128 : Shape := ⟨2, ![2048, 128]⟩
abbrev S2048x1x128 : Shape := ⟨3, ![2048, 1, 128]⟩
abbrev S2048x256 : Shape := ⟨2, ![2048, 256]⟩
abbrev S2048x256x1 : Shape := ⟨3, ![2048, 256, 1]⟩
abbrev S1x1x128 : Shape := ⟨3, ![1, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S2048x256x128, .f32⟩
  | .hbm, ⟨1, _⟩ => ⟨S2048x768, .f32⟩
  | .hbm, ⟨2, _⟩ => ⟨S32768x768, .f32⟩
  | .hbm, ⟨3, _⟩ => ⟨S32768, .f32⟩
  | .hbm, ⟨4, _⟩ => ⟨S128, .f32⟩
  | .hbm, ⟨5, _⟩ => ⟨S768x32768, .f32⟩
  | .hbm, ⟨6, _⟩ => ⟨S2048x32768, .f32⟩
  | .hbm, ⟨7, _⟩ => ⟨S1x32768, .f32⟩
  | .hbm, ⟨8, _⟩ => ⟨S2048x32768, .f32⟩
  | .hbm, ⟨9, _⟩ => ⟨S2048x32768, .f32⟩
  | .hbm, ⟨10, _⟩ => ⟨S2048x16384, .f32⟩
  | .hbm, ⟨11, _⟩ => ⟨S2048x16384, .f32⟩
  | .hbm, ⟨12, _⟩ => ⟨S2048x128x128, .f32⟩
  | .hbm, ⟨13, _⟩ => ⟨S2048x128x128, .f32⟩
  | .hbm, ⟨14, _⟩ => ⟨S2048x128x128, .f32⟩
  | .hbm, ⟨15, _⟩ => ⟨S_, .f32⟩
  | .hbm, ⟨16, _⟩ => ⟨S2048x128, .f32⟩
  | .hbm, ⟨17, _⟩ => ⟨S2048x1x128, .f32⟩
  | .hbm, ⟨18, _⟩ => ⟨S2048x1x128, .f32⟩
  | .hbm, ⟨19, _⟩ => ⟨S_, .f32⟩
  | .hbm, ⟨20, _⟩ => ⟨S2048x1x128, .f32⟩
  | .hbm, ⟨21, _⟩ => ⟨S2048x1x128, .f32⟩
  | .hbm, ⟨22, _⟩ => ⟨S2048x128x128, .f32⟩
  | .hbm, ⟨23, _⟩ => ⟨S2048x128x128, .f32⟩
  | .hbm, ⟨24, _⟩ => ⟨S2048x256x128, .f32⟩
  | .hbm, ⟨25, _⟩ => ⟨S_, .f32⟩
  | .hbm, ⟨26, _⟩ => ⟨S2048x256, .f32⟩
  | .hbm, ⟨27, _⟩ => ⟨S2048x256x1, .f32⟩
  | .hbm, ⟨28, _⟩ => ⟨S_, .f32⟩
  | .hbm, ⟨29, _⟩ => ⟨S2048x256x1, .f32⟩
  | .hbm, ⟨30, _⟩ => ⟨S2048x256x1, .f32⟩
  | .hbm, ⟨31, _⟩ => ⟨S_, .f32⟩
  | .hbm, ⟨32, _⟩ => ⟨S2048x256x1, .f32⟩
  | .hbm, ⟨33, _⟩ => ⟨S2048x256x1, .f32⟩
  | .hbm, ⟨34, _⟩ => ⟨S2048x256x1, .f32⟩
  | .hbm, ⟨35, _⟩ => ⟨S2048x256x128, .f32⟩
  | .hbm, ⟨36, _⟩ => ⟨S2048x256x128, .f32⟩
  | .hbm, ⟨37, _⟩ => ⟨S1x1x128, .f32⟩
  | .hbm, ⟨38, _⟩ => ⟨S2048x256x128, .f32⟩
  | .hbm, ⟨39, _⟩ => ⟨S2048x256x128, .f32⟩
  | .hbm, ⟨40, _⟩ => ⟨S2048x256x128, .f32⟩
  | .hbm, ⟨41, _⟩ => ⟨S2048x256x128, .f32⟩
  | .hbm, ⟨42, _⟩ => ⟨S2048x256x128, .f32⟩
  | .hbm, ⟨43, _⟩ => ⟨S_, .f32⟩
  | .hbm, ⟨44, _⟩ => ⟨S2048x256x128, .f32⟩
  | .hbm, ⟨45, _⟩ => ⟨S2048x256x128, .f32⟩
  | .hbm, ⟨46, _⟩ => ⟨S_, .f32⟩
  | .hbm, ⟨47, _⟩ => ⟨S2048x256x128, .f32⟩
  | .hbm, ⟨48, _⟩ => ⟨S2048x256x128, .f32⟩
  | .hbm, ⟨49, _⟩ => ⟨S2048x256x128, .f32⟩
  | .hbm, ⟨50, _⟩ => ⟨S2048x256x128, .f32⟩
  | .hbm, ⟨51, _⟩ => ⟨S2048x256x128, .f32⟩
  | _, _ => ⟨S2048x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  transposes_S32768x768_S768x32768_1_0 : S32768x768.Transposes [1, 0] S768x32768
  bcast_S32768_S1x32768_1 : S32768.BroadcastsInDim S1x32768 (![1] : Fin 1 → Fin S1x32768.rank)
  bcast_S1x32768_S2048x32768_0_1 : S1x32768.BroadcastsInDim S2048x32768 (![0, 1] : Fin 2 → Fin S2048x32768.rank)
  slices_S2048x32768_S2048x16384_0_0 : S2048x32768.Slices ![0, 0] S2048x16384
  slices_S2048x32768_S2048x16384_0_16384 : S2048x32768.Slices ![0, 16384] S2048x16384
  shapeCasts_S2048x16384_S2048x128x128 : S2048x16384.ShapeCasts S2048x128x128
  reducesTo_S2048x128x128_S2048x128_d1 : S2048x128x128.ReducesTo [1] S2048x128
  h_S_ : 0 < S_.numel
  bcast_S2048x128_S2048x1x128_0_2 : S2048x128.BroadcastsInDim S2048x1x128 (![0, 2] : Fin 2 → Fin S2048x1x128.rank)
  bcast_S_S2048x1x128 : S_.BroadcastsInDim S2048x1x128 (![] : Fin 0 → Fin S2048x1x128.rank)
  bcast_S2048x1x128_S2048x128x128_0_1_2 : S2048x1x128.BroadcastsInDim S2048x128x128 (![0, 1, 2] : Fin 3 → Fin S2048x128x128.rank)
  reducesTo_S2048x256x128_S2048x256_d2 : S2048x256x128.ReducesTo [2] S2048x256
  bcast_S2048x256_S2048x256x1_0_1 : S2048x256.BroadcastsInDim S2048x256x1 (![0, 1] : Fin 2 → Fin S2048x256x1.rank)
  bcast_S_S2048x256x1 : S_.BroadcastsInDim S2048x256x1 (![] : Fin 0 → Fin S2048x256x1.rank)
  bcast_S2048x256x1_S2048x256x128_0_1_2 : S2048x256x1.BroadcastsInDim S2048x256x128 (![0, 1, 2] : Fin 3 → Fin S2048x256x128.rank)
  bcast_S128_S1x1x128_2 : S128.BroadcastsInDim S1x1x128 (![2] : Fin 1 → Fin S1x1x128.rank)
  bcast_S1x1x128_S2048x256x128_0_1_2 : S1x1x128.BroadcastsInDim S2048x256x128 (![0, 1, 2] : Fin 3 → Fin S2048x256x128.rank)
  bcast_S_S2048x256x128 : S_.BroadcastsInDim S2048x256x128 (![] : Fin 0 → Fin S2048x256x128.rank)
  dot_S2048x768_S768x32768_S2048x32768_1_0_0_1_n_n_wf : DotDims.WF S2048x768 S768x32768 S2048x32768 [1] [0] [0] [1] [] []
  dot_S2048x256x128_S2048x128x128_S2048x256x128_2_1_1_2_0_0_wf : DotDims.WF S2048x256x128 S2048x128x128 S2048x256x128 [2] [1] [1] [2] [0] [0]

variable [Facts₀]

def dot_S2048x768_S768x32768_S2048x32768_1_0_0_1_n_n : DotDims S2048x768 S768x32768 S2048x32768 where
  lhsContracting := [1]
  rhsContracting := [0]
  lhsNonContracting := [0]
  rhsNonContracting := [1]
  lhsBatch := []
  rhsBatch := []
  wf := dot_S2048x768_S768x32768_S2048x32768_1_0_0_1_n_n_wf
def dot_S2048x256x128_S2048x128x128_S2048x256x128_2_1_1_2_0_0 : DotDims S2048x256x128 S2048x128x128 S2048x256x128 where
  lhsContracting := [2]
  rhsContracting := [1]
  lhsNonContracting := [1]
  rhsNonContracting := [2]
  lhsBatch := [0]
  rhsBatch := [0]
  wf := dot_S2048x256x128_S2048x128x128_S2048x256x128_2_1_1_2_0_0_wf

class Facts : Prop extends Facts₀ where

variable [Facts]
-- ==== Proof.KernelRun.lean ====
/-
  The idealized kernel program's run with its result named. The program is four segments: two host operations
  (the transpose of the weight and the bias as a row), the first kernel region (the linear layer), five host
  operations (the two halves of its output as per-sample matrices, the norm weight as [1,1,128]) and the second
  kernel region (the perceptron). Every weakly fair execution ends with the result buffer at what the second
  region's write-backs leave, `W4 … main_v8`, and the arguments as launched.
-/
import proofs.«119298_j73392401154483_2_alg».proof.Proof.Gen.KernelIdeal.Frame

set_option maxRecDepth 16384

noncomputable section

namespace Cert.KernelSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments, the last thread state read against the final state at the result buffer as
    well as at the arguments. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelSide

end
-- ==== Proof.KernelHost.lean ====
/-
  What the host operations of the kernel program put in front of each region, as terms of the launch memory and of
  the first region's output.
-/
import proofs.«119298_j73392401154483_2_alg».proof.Proof.Gen.KernelIdeal.Frame
import Idealize.ShloMosaic.Lib.StableHlo.Run

noncomputable section

namespace Cert.KernelSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The first region finds the transposed weight in its second window's array. -/
theorem entry0_weight (c : Dev nD) :
    V1 m ρ c main_v0 = transpose S768x32768 [1, 0] (m ((c : Thread nD τ).loc main_arg2)) transposes_S32768x768_S768x32768_1_0 := by
  show StableHlo.after hostOps0 (W0 m ρ c) (Proc.devRef .tc main_v0) = _
  after_results <;> rfl

/-- … and the bias as a row in its third. -/
theorem entry0_bias (c : Dev nD) :
    V1 m ρ c main_v1 = shapeCast S1x32768 (m ((c : Thread nD τ).loc main_arg3)) shapeCasts_S32768_S1x32768 := by
  show StableHlo.after hostOps0 (W0 m ρ c) (Proc.devRef .tc main_v1) = _
  after_results <;> rfl

/-- … and the input rows, untouched, in its first. -/
theorem entry0_input (c : Dev nD) : V1 m ρ c main_arg1 = m ((c : Thread nD τ).loc main_arg1) := by
  show StableHlo.after hostOps0 (W0 m ρ c) (Proc.devRef .tc main_arg1) = _
  after_results <;> rfl

/-- The second region finds, as its first weight matrices, the left half of the first region's output, each
    sample's 16384 entries as a 128 by 128 matrix. -/
theorem entry1_layer1 (c : Dev nD) :
    V3 m ρ c main_v4 = shapeCast S2048x128x128 (extractStridedSlice S2048x16384 ![0, 0]
      (W2 m ρ c (Proc.devRef .tc main_v2)) slices_S2048x32768_S2048x16384_0_0) shapeCasts_S2048x16384_S2048x128x128 := by
  show StableHlo.after hostOps1 (W2 m ρ c) (Proc.devRef .tc main_v4) = _
  after_results <;> rfl

/-- … as its second weight matrices the right half, likewise. -/
theorem entry1_layer2 (c : Dev nD) :
    V3 m ρ c main_v6 = shapeCast S2048x128x128 (extractStridedSlice S2048x16384 ![0, 16384]
      (W2 m ρ c (Proc.devRef .tc main_v2)) slices_S2048x32768_S2048x16384_0_16384) shapeCasts_S2048x16384_S2048x128x128 := by
  show StableHlo.after hostOps1 (W2 m ρ c) (Proc.devRef .tc main_v6) = _
  after_results <;> rfl

/-- … the norm weight as a [1,1,128] array. -/
theorem entry1_normWeight (c : Dev nD) :
    V3 m ρ c main_v7 = shapeCast S1x1x128 (W2 m ρ c (Proc.devRef .tc main_arg4)) shapeCasts_S128_S1x1x128 := by
  show StableHlo.after hostOps1 (W2 m ρ c) (Proc.devRef .tc main_v7) = _
  after_results <;> rfl

/-- … and the pixels, untouched since the launch. -/
theorem entry1_input (c : Dev nD) : V3 m ρ c main_arg0 = m ((c : Thread nD τ).loc main_arg0) := by
  show StableHlo.after hostOps1 (W2 m ρ c) (Proc.devRef .tc main_arg0) = _
  refine Eq.trans (by after_results <;> rfl) ((W2_of_ne m ρ c main_arg0 (by decide)).trans ?_)
  show StableHlo.after hostOps0 (W0 m ρ c) (Proc.devRef .tc main_arg0) = _
  after_results <;> rfl

/-- The norm weight reaches the second stretch of host operations as launched. -/
theorem mid_normWeight (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

/-- The first region's output array after its run, and the second's. -/
theorem mid_params (c : Dev nD) : W2 m ρ c (Proc.devRef .tc main_v2) = (dat0 (V1 m ρ) c).arrAt 3 cfg0.N := W2_arr m ρ c 3
theorem end_result (c : Dev nD) : W4 m ρ c (Proc.devRef .tc main_v8) = (dat1 (V3 m ρ) c).arrAt 4 cfg1.N := W4_arr m ρ c 4

end Cert.KernelSide

end
-- ==== Proof.Spec.lean ====
/-
  The two layers of the network as functions of their operand arrays, index by index, on the extended reals.

  `params` is the linear layer that generates the per-sample weights: entry (p, j) is the sum over k of
  A(p, k) · Wt(k, j), plus the bias at j.

  `mlp` is the per-sample two-layer perceptron with its residual, for a batch of `B` samples. For sample b:
  the first weight matrix L1(b) has each COLUMN e divided by max(‖column e‖₂, ε₁) (`colNorm`, `l1n`); each ROW n of
  X(b) is scaled by the reciprocal square root of (its mean square + ε₂) and by the learned weight (`invRms`, `xn`);
  the hidden row is their product (`hid`), passed through h ↦ h · logistic h (`act`); the result is the hidden row
  times L2(b), plus X(b) itself (`mlpAt`). Entry (b, n, f) reads only sample b of X, L1 and L2 (`mlpAt_congr`).
-/
import Idealize.ShloMosaic.PureOps.Ideal
import Idealize.ShloMosaic.Lib.ValueIdx

noncomputable section

open scoped BigOperators

namespace Cert.Spec

open Idealize.ShloMosaic Idealize.ShloMosaic.ValueIdx

/-- Entry (p, j) of the linear layer: Σₖ A(p, k) · Wt(k, j) + bias(j). -/
def paramsAt (A : (⟨2, ![2048, 768]⟩ : Shape).Idx → EReal) (Wt : (⟨2, ![768, 32768]⟩ : Shape).Idx → EReal)
    (bias : Fin 32768 → EReal) (p : Fin 2048) (j : Fin 32768) : EReal :=
  (∑ k : Fin 768, A (ix2 p k) * Wt (ix2 k j)) + bias j

/-- The linear layer as one array. -/
def params (A : (⟨2, ![2048, 768]⟩ : Shape).Idx → EReal) (Wt : (⟨2, ![768, 32768]⟩ : Shape).Idx → EReal)
    (bias : Fin 32768 → EReal) : (⟨2, ![2048, 32768]⟩ : Shape).Idx → EReal :=
  fun i => paramsAt A Wt bias ⟨(i 0).val, (i 0).isLt⟩ ⟨(i 1).val, (i 1).isLt⟩

theorem params_ix2 (A : (⟨2, ![2048, 768]⟩ : Shape).Idx → EReal) (Wt : (⟨2, ![768, 32768]⟩ : Shape).Idx → EReal)
    (bias : Fin 32768 → EReal) (p : Fin 2048) (j : Fin 32768) :
    params A Wt bias (ix2 p j) = paramsAt A Wt bias p j := rfl

variable {B : Nat}

/-- max(‖column e of L1(b)‖₂, ε₁), ε₁ the f32 nearest 1e-12. -/
def colNorm (L1 : (⟨3, ![B, 128, 128]⟩ : Shape).Idx → EReal) (b : Fin B) (e : Fin 128) : EReal :=
  max (Ideal.sqrt (∑ d : Fin 128, L1 (ix3 b d e) * L1 (ix3 b d e))) (Ideal.ofBits .f32 0x2B8CBCCC#32)

/-- L1(b) with every column divided by its clamped norm. -/
def l1n (L1 : (⟨3, ![B, 128, 128]⟩ : Shape).Idx → EReal) (b : Fin B) (d e : Fin 128) : EReal :=
  Ideal.div (L1 (ix3 b d e)) (colNorm L1 b e)

/-- (mean square of row n of X(b) + ε₂)^(-1/2), the mean as the sum divided by 128, ε₂ = 2⁻²³. -/
def invRms (X : (⟨3, ![B, 256, 128]⟩ : Shape).Idx → EReal) (b : Fin B) (n : Fin 256) : EReal :=
  Ideal.rsqrt (Ideal.div (∑ d : Fin 128, X (ix3 b n d) * X (ix3 b n d)) (Ideal.ofBits .f32 0x43000000#32)
    + Ideal.ofBits .f32 0x34000000#32)

/-- The normalised, weighted input. -/
def xn (X : (⟨3, ![B, 256, 128]⟩ : Shape).Idx → EReal) (nw : Fin 128 → EReal) (b : Fin B) (n : Fin 256) (d : Fin 128) : EReal :=
  X (ix3 b n d) * invRms X b n * nw d

/-- The hidden layer before its activation. -/
def hid (X : (⟨3, ![B, 256, 128]⟩ : Shape).Idx → EReal) (L1 : (⟨3, ![B, 128, 128]⟩ : Shape).Idx → EReal)
    (nw : Fin 128 → EReal) (b : Fin B) (n : Fin 256) (e : Fin 128) : EReal :=
  ∑ d : Fin 128, xn X nw b n d * l1n L1 b d e

/-- h · logistic h. -/
def act (h : EReal) : EReal := h * Ideal.logistic h

/-- Entry (b, n, f) of the perceptron's output with its residual. -/
def mlpAt (X : (⟨3, ![B, 256, 128]⟩ : Shape).Idx → EReal) (L1 L2 : (⟨3, ![B, 128, 128]⟩ : Shape).Idx → EReal)
    (nw : Fin 128 → EReal) (b : Fin B) (n : Fin 256) (f : Fin 128) : EReal :=
  (∑ e : Fin 128, act (hid X L1 nw b n e) * L2 (ix3 b e f)) + X (ix3 b n f)

/-- The perceptron's output as one array. -/
def mlp (X : (⟨3, ![B, 256, 128]⟩ : Shape).Idx → EReal) (L1 L2 : (⟨3, ![B, 128, 128]⟩ : Shape).Idx → EReal)
    (nw : Fin 128 → EReal) : (⟨3, ![B, 256, 128]⟩ : Shape).Idx → EReal :=
  fun i => mlpAt X L1 L2 nw ⟨(i 0).val, (i 0).isLt⟩ ⟨(i 1).val, (i 1).isLt⟩ ⟨(i 2).val, (i 2).isLt⟩

theorem mlp_ix3 (X : (⟨3, ![B, 256, 128]⟩ : Shape).Idx → EReal) (L1 L2 : (⟨3, ![B, 128, 128]⟩ : Shape).Idx → EReal)
    (nw : Fin 128 → EReal) (b : Fin B) (n : Fin 256) (f : Fin 128) :
    mlp X L1 L2 nw (ix3 b n f) = mlpAt X L1 L2 nw b n f := rfl

/-- Entry (b, n, f) reads only sample b: two batches whose samples b and b' agree give the same entry. -/
theorem mlpAt_congr {B' : Nat} (X : (⟨3, ![B, 256, 128]⟩ : Shape).Idx → EReal) (L1 L2 : (⟨3, ![B, 128, 128]⟩ : Shape).Idx → EReal)
    (X' : (⟨3, ![B', 256, 128]⟩ : Shape).Idx → EReal) (L1' L2' : (⟨3, ![B', 128, 128]⟩ : Shape).Idx → EReal)
    (nw : Fin 128 → EReal) (b : Fin B) (b' : Fin B')
    (hX : ∀ n d, X (ix3 b n d) = X' (ix3 b' n d)) (h1 : ∀ d e, L1 (ix3 b d e) = L1' (ix3 b' d e))
    (h2 : ∀ e f, L2 (ix3 b e f) = L2' (ix3 b' e f)) (n : Fin 256) (f : Fin 128) :
    mlpAt X L1 L2 nw b n f = mlpAt X' L1' L2' nw b' n f := by
  simp only [mlpAt, hid, xn, invRms, l1n, colNorm, hX, h1, h2]

end Cert.Spec

end
-- ==== Proof.KernelParamsBody.lean ====
/-
  The first kernel's body at an index. One block of the linear layer is a [256,768] tile of the input times a
  [768,2048] tile of the transposed weight, accumulated from zero, plus the bias row repeated down the rows; the
  roundings to bf16 on the way into the product are the identity on the extended reals. So entry (p, q) of the block is
  Σₖ x0(p, k) · x1(k, q) + x2(0, q).
-/
import proofs.«119298_j73392401154483_2_alg».proof.Proof.Gen.KernelIdeal.Skeleton
import proofs.«119298_j73392401154483_2_alg».proof.Proof.Spec
import Idealize.ShloMosaic.Lib.ValueLayout
import Idealize.ShloMosaic.Lib.Pipeline.Value
import Idealize.ShloMosaic.PureOps.Ideal.Laws

noncomputable section

open scoped BigOperators

namespace Cert.KernelSide

open Idealize.ShloMosaic Idealize.ShloMosaic.ValueIdx Cert.KernelIdeal Cert.KernelIdeal.Gen

/-- The product's operand indices, coordinate by coordinate: the left operand is read at (row of the output,
    contracted index), the right at (contracted index, column of the output). -/
theorem tile_lhs_0 (i : S256x2048.Idx) (q : dot_S256x768_S768x2048_S256x2048_1_0_0_1_n_n.contr.Idx) :
    (dot_S256x768_S768x2048_S256x2048_1_0_0_1_n_n.lhsIdx i q 0).val = (i 0).val := by
  unfold DotDims.lhsIdx
  rw [dif_neg (show ¬(0 : Fin S256x768.rank) ∈ dot_S256x768_S768x2048_S256x2048_1_0_0_1_n_n.lhsBatch by decide),
    dif_pos (show (0 : Fin S256x768.rank) ∈ dot_S256x768_S768x2048_S256x2048_1_0_0_1_n_n.lhsNonContracting by decide)]
  rfl
theorem tile_lhs_1 (i : S256x2048.Idx) (q : dot_S256x768_S768x2048_S256x2048_1_0_0_1_n_n.contr.Idx) :
    (dot_S256x768_S768x2048_S256x2048_1_0_0_1_n_n.lhsIdx i q 1).val = (q ⟨0, by decide⟩).val :=
  dot_S256x768_S768x2048_S256x2048_1_0_0_1_n_n.lhsIdx_val_of_single rfl i q
theorem tile_rhs_0 (i : S256x2048.Idx) (q : dot_S256x768_S768x2048_S256x2048_1_0_0_1_n_n.contr.Idx) :
    (dot_S256x768_S768x2048_S256x2048_1_0_0_1_n_n.rhsIdx i q 0).val = (q ⟨0, by decide⟩).val :=
  dot_S256x768_S768x2048_S256x2048_1_0_0_1_n_n.rhsIdx_val_of_single rfl i q
theorem tile_rhs_1 (i : S256x2048.Idx) (q : dot_S256x768_S768x2048_S256x2048_1_0_0_1_n_n.contr.Idx) :
    (dot_S256x768_S768x2048_S256x2048_1_0_0_1_n_n.rhsIdx i q 1).val = (i 1).val := by
  unfold DotDims.rhsIdx
  rw [dif_neg (show ¬(1 : Fin S768x2048.rank) ∈ dot_S256x768_S768x2048_S256x2048_1_0_0_1_n_n.rhsBatch by decide),
    dif_pos (show (1 : Fin S768x2048.rank) ∈ dot_S256x768_S768x2048_S256x2048_1_0_0_1_n_n.rhsNonContracting by decide)]
  rfl

/-- The product of a [256,768] tile with a [768,2048] tile into the zero accumulator, read at (p, q): the sum over
    the one contracted axis. -/
theorem tileProduct_apply (l : FVec Ideal S256x768 .bf16) (r : FVec Ideal S768x2048 .bf16) (p : Fin 256) (q : Fin 2048) :
    matmul dot_S256x768_S768x2048_S256x2048_1_0_0_1_n_n none l r (constant S256x2048 .f32 0x00000000#32) (ix2 p q)
      = ∑ k : Fin 768, l (ix2 p k) * r (ix2 k q) := by
  simp only [matmul]
  rw [Ideal.matmul_constant_zero_apply,
    ← Equiv.sum_comp (contrEquiv1 dot_S256x768_S768x2048_S256x2048_1_0_0_1_n_n 768 rfl rfl).symm]
  refine Finset.sum_congr rfl fun k _ => ?_
  have hk := contrEquiv1_symm_val dot_S256x768_S768x2048_S256x2048_1_0_0_1_n_n 768 rfl rfl k
  have el : dot_S256x768_S768x2048_S256x2048_1_0_0_1_n_n.lhsIdx (ix2 p q)
      ((contrEquiv1 dot_S256x768_S768x2048_S256x2048_1_0_0_1_n_n 768 rfl rfl).symm k) = ix2 p k :=
    funext fun a => Fin.ext (by
      match a with
      | ⟨0, _⟩ => exact tile_lhs_0 _ _
      | ⟨1, _⟩ => exact (tile_lhs_1 _ _).trans hk)
  have er : dot_S256x768_S768x2048_S256x2048_1_0_0_1_n_n.rhsIdx (ix2 p q)
      ((contrEquiv1 dot_S256x768_S768x2048_S256x2048_1_0_0_1_n_n 768 rfl rfl).symm k) = ix2 k q :=
    funext fun a => Fin.ext (by
      match a with
      | ⟨0, _⟩ => exact (tile_rhs_0 _ _).trans hk
      | ⟨1, _⟩ => exact tile_rhs_1 _ _)
  rw [el, er]

/-- Entry (p, q) of the block the first kernel stores: Σₖ x0(p, k) · x1(k, q) + x2(0, q). -/
theorem pay0_eq (x0 : Vec Ideal S256x768 .f32) (x1 : Vec Ideal S768x2048 .f32) (x2 : Vec Ideal S1x2048 .f32)
    (p : Fin 256) (q : Fin 2048) :
    k0_pay1 (F := Ideal) x0 x1 x2 (ix2 p q) = (∑ k : Fin 768, x0 (ix2 p k) * x1 (ix2 k q)) + x2 (ix2 0 q) := by
  unfold k0_pay1
  rw [shapeCast_self, shapeCast_self]
  refine congrArg₂ (· + ·) ?_ ?_
  · exact tileProduct_apply (truncf .bf16 x0 bitsLt_bf16_f32) (truncf .bf16 x1 bitsLt_bf16_f32) p q
  · exact broadcastTo_1b_ab_apply x2 broadcasts_S1x2048_S256x2048 p q

end Cert.KernelSide

end
-- ==== Proof.KernelMlpBody.lean ====
/-
  The second kernel's body at an index. On one block of sixteen samples the body squares and sums the first weight
  matrix down its columns, takes the root, clamps it below and divides; squares and sums each input row, divides by 128,
  adds 2⁻²³, takes the reciprocal root and scales the row by it and by the norm weight; multiplies the two (a product
  batched over the sample, accumulated from zero), applies h ↦ h · logistic h, multiplies by the second weight matrix
  and adds the input back. Each lane sum is the plain sum over the reduced axis, each product the plain sum over the
  contracted axis, the unit-axis casts and broadcasts only re-index, and the roundings to bf16 are the identity on the
  extended reals: so the block is the specification's `mlp` on a batch of sixteen.
-/
import proofs.«119298_j73392401154483_2_alg».proof.Proof.Gen.KernelIdeal.Skeleton
import proofs.«119298_j73392401154483_2_alg».proof.Proof.Spec
import Idealize.ShloMosaic.Lib.Pipeline.Value
import Idealize.ShloMosaic.Lib.ValueIdx
import Idealize.ShloMosaic.PureOps.Ideal.Laws

noncomputable section

open scoped BigOperators

namespace Cert.KernelSide

open Idealize.ShloMosaic Idealize.ShloMosaic.ValueIdx Cert.KernelIdeal Cert.KernelIdeal.Gen

/-! ## The non-pointwise operations read at explicit coordinates -/

/-- The sum over axis 1 of a [16,128,128] array, read at (b, e), is the sum over d of its entries (b, d, e). -/
theorem colsum (v : FVec Ideal S16x128x128 .f32) (h : S16x128x128.Reduces [1] S16x128) (hφ : FKind.Formats FTy.f32)
    (hacc : (0x00000000#32 : BitVec 32) = 0x00000000#32) (b : Fin 16) (e : Fin 128) :
    multiReduction .add [1] S16x128 v 0x00000000#32 h hφ hacc (ix2 b e) = ∑ d : Fin 128, v (ix3 b d e) := by
  refine (Ideal.multiReduction_add_single v 0x00000000#32 h hφ hacc (ix2 b e)).trans ?_
  refine Finset.sum_congr rfl fun d _ => congrArg v ?_
  funext c; apply Fin.ext
  fin_cases c <;> rfl

/-- The sum over axis 2 of a [16,256,128] array, read at (b, n), is the sum over d of its entries (b, n, d). -/
theorem rowsum (v : FVec Ideal S16x256x128 .f32) (h : S16x256x128.Reduces [2] S16x256) (hφ : FKind.Formats FTy.f32)
    (hacc : (0x00000000#32 : BitVec 32) = 0x00000000#32) (b : Fin 16) (n : Fin 256) :
    multiReduction .add [2] S16x256 v 0x00000000#32 h hφ hacc (ix2 b n) = ∑ d : Fin 128, v (ix3 b n d) := by
  refine (Ideal.multiReduction_add_single v 0x00000000#32 h hφ hacc (ix2 b n)).trans ?_
  refine Finset.sum_congr rfl fun d _ => congrArg v ?_
  funext c; apply Fin.ext
  fin_cases c <;> rfl

/-- A [16,128] array viewed as [16,1,128]: entry (b, 0, e) is entry (b, e). -/
theorem cast_col {α : Type} (w : S16x128.Idx → α) (h : S16x128.ShapeCasts S16x1x128) (b : Fin 16) (e : Fin 128) :
    shapeCast S16x1x128 w h (ix3 b 0 e) = w (ix2 b e) := by
  refine shapeCast_apply w h (ix3 b 0 e) (ix2 b e) ?_
  rw [Shape.rowMajor_val_two, Shape.rowMajor_val_three]
  show b.val * 128 + e.val = (b.val * 1 + 0) * 128 + e.val
  omega

/-- A [16,256] array viewed as [16,256,1]: entry (b, n, 0) is entry (b, n). -/
theorem cast_row {α : Type} (w : S16x256.Idx → α) (h : S16x256.ShapeCasts S16x256x1) (b : Fin 16) (n : Fin 256) :
    shapeCast S16x256x1 w h (ix3 b n 0) = w (ix2 b n) := by
  refine shapeCast_apply w h (ix3 b n 0) (ix2 b n) ?_
  rw [Shape.rowMajor_val_two, Shape.rowMajor_val_three]
  show b.val * 256 + n.val = (b.val * 256 + n.val) * 1 + 0
  omega

/-- A [16,1,128] array repeated along axis 1: entry (b, d, e) is entry (b, 0, e). -/
theorem bc_col {α : Type} (w : S16x1x128.Idx → α) (h : S16x1x128.Broadcasts S16x128x128) (b : Fin 16) (d e : Fin 128) :
    broadcastTo S16x128x128 w h (ix3 b d e) = w (ix3 b 0 e) := by
  refine broadcastTo_apply w h (ix3 b d e) (ix3 b 0 e) fun a => ?_
  match a with
  | ⟨0, _⟩ => show b.val = if (16 : Nat) = 1 then 0 else b.val; rw [if_neg (by decide)]
  | ⟨1, _⟩ => show (0 : Nat) = if (1 : Nat) = 1 then 0 else d.val; rw [if_pos rfl]
  | ⟨2, _⟩ => show e.val = if (128 : Nat) = 1 then 0 else e.val; rw [if_neg (by decide)]

/-- A [16,256,1] array repeated along axis 2: entry (b, n, d) is entry (b, n, 0). -/
theorem bc_row {α : Type} (w : S16x256x1.Idx → α) (h : S16x256x1.Broadcasts S16x256x128) (b : Fin 16) (n : Fin 256) (d : Fin 128) :
    broadcastTo S16x256x128 w h (ix3 b n d) = w (ix3 b n 0) := by
  refine broadcastTo_apply w h (ix3 b n d) (ix3 b n 0) fun a => ?_
  match a with
  | ⟨0, _⟩ => show b.val = if (16 : Nat) = 1 then 0 else b.val; rw [if_neg (by decide)]
  | ⟨1, _⟩ => show n.val = if (256 : Nat) = 1 then 0 else n.val; rw [if_neg (by decide)]
  | ⟨2, _⟩ => show (0 : Nat) = if (1 : Nat) = 1 then 0 else d.val; rw [if_pos rfl]

/-- A [1,1,128] array repeated along axes 0 and 1: entry (b, n, d) is entry (0, 0, d). -/
theorem bc_nw {α : Type} (w : S1x1x128.Idx → α) (h : S1x1x128.Broadcasts S16x256x128) (b : Fin 16) (n : Fin 256) (d : Fin 128) :
    broadcastTo S16x256x128 w h (ix3 b n d) = w (ix3 0 0 d) := by
  refine broadcastTo_apply w h (ix3 b n d) (ix3 0 0 d) fun a => ?_
  match a with
  | ⟨0, _⟩ => show (0 : Nat) = if (1 : Nat) = 1 then 0 else b.val; rw [if_pos rfl]
  | ⟨1, _⟩ => show (0 : Nat) = if (1 : Nat) = 1 then 0 else n.val; rw [if_pos rfl]
  | ⟨2, _⟩ => show d.val = if (128 : Nat) = 1 then 0 else d.val; rw [if_neg (by decide)]

/-! ## The batched product: batch axis 0, the left operand's axis 2 contracted with the right operand's axis 1 -/

theorem lhs_0 (i : S16x256x128.Idx) (q : dot_S16x256x128_S16x128x128_S16x256x128_2_1_1_2_0_0.contr.Idx) : (dot_S16x256x128_S16x128x128_S16x256x128_2_1_1_2_0_0.lhsIdx i q 0).val = (i 0).val := by
  unfold DotDims.lhsIdx
  rw [dif_pos (show (0 : Fin S16x256x128.rank) ∈ dot_S16x256x128_S16x128x128_S16x256x128_2_1_1_2_0_0.lhsBatch by decide)]
  rfl
theorem lhs_1 (i : S16x256x128.Idx) (q : dot_S16x256x128_S16x128x128_S16x256x128_2_1_1_2_0_0.contr.Idx) : (dot_S16x256x128_S16x128x128_S16x256x128_2_1_1_2_0_0.lhsIdx i q 1).val = (i 1).val := by
  unfold DotDims.lhsIdx
  rw [dif_neg (show ¬(1 : Fin S16x256x128.rank) ∈ dot_S16x256x128_S16x128x128_S16x256x128_2_1_1_2_0_0.lhsBatch by decide), dif_pos (show (1 : Fin S16x256x128.rank) ∈ dot_S16x256x128_S16x128x128_S16x256x128_2_1_1_2_0_0.lhsNonContracting by decide)]
  rfl
theorem lhs_2 (i : S16x256x128.Idx) (q : dot_S16x256x128_S16x128x128_S16x256x128_2_1_1_2_0_0.contr.Idx) : (dot_S16x256x128_S16x128x128_S16x256x128_2_1_1_2_0_0.lhsIdx i q 2).val = (q ⟨0, by decide⟩).val :=
  dot_S16x256x128_S16x128x128_S16x256x128_2_1_1_2_0_0.lhsIdx_val_of_single rfl i q
theorem rhs_0 (i : S16x256x128.Idx) (q : dot_S16x256x128_S16x128x128_S16x256x128_2_1_1_2_0_0.contr.Idx) : (dot_S16x256x128_S16x128x128_S16x256x128_2_1_1_2_0_0.rhsIdx i q 0).val = (i 0).val := by
  unfold DotDims.rhsIdx
  rw [dif_pos (show (0 : Fin S16x128x128.rank) ∈ dot_S16x256x128_S16x128x128_S16x256x128_2_1_1_2_0_0.rhsBatch by decide)]
  rfl
theorem rhs_1 (i : S16x256x128.Idx) (q : dot_S16x256x128_S16x128x128_S16x256x128_2_1_1_2_0_0.contr.Idx) : (dot_S16x256x128_S16x128x128_S16x256x128_2_1_1_2_0_0.rhsIdx i q 1).val = (q ⟨0, by decide⟩).val :=
  dot_S16x256x128_S16x128x128_S16x256x128_2_1_1_2_0_0.rhsIdx_val_of_single rfl i q
theorem rhs_2 (i : S16x256x128.Idx) (q : dot_S16x256x128_S16x128x128_S16x256x128_2_1_1_2_0_0.contr.Idx) : (dot_S16x256x128_S16x128x128_S16x256x128_2_1_1_2_0_0.rhsIdx i q 2).val = (i 2).val := by
  unfold DotDims.rhsIdx
  rw [dif_neg (show ¬(2 : Fin S16x128x128.rank) ∈ dot_S16x256x128_S16x128x128_S16x256x128_2_1_1_2_0_0.rhsBatch by decide), dif_pos (show (2 : Fin S16x128x128.rank) ∈ dot_S16x256x128_S16x128x128_S16x256x128_2_1_1_2_0_0.rhsNonContracting by decide)]
  rfl

/-- The batched product into the zero array, read at (b, n, e): the sum over k of left (b, n, k) times right (b, k, e). -/
theorem bmm (l : FVec Ideal S16x256x128 .bf16) (r : FVec Ideal S16x128x128 .bf16) (b : Fin 16) (n : Fin 256) (e : Fin 128) :
    matmul dot_S16x256x128_S16x128x128_S16x256x128_2_1_1_2_0_0 none l r (constant (F := Ideal) S16x256x128 .f32 0x00000000#32) (ix3 b n e)
      = ∑ k : Fin 128, l (ix3 b n k) * r (ix3 b k e) := by
  simp only [matmul]
  rw [Ideal.matmul_constant_zero_apply, ← Equiv.sum_comp (ValueIdx.contrEquiv1 dot_S16x256x128_S16x128x128_S16x256x128_2_1_1_2_0_0 128 rfl rfl).symm]
  refine Finset.sum_congr rfl fun k _ => ?_
  have hk := ValueIdx.contrEquiv1_symm_val dot_S16x256x128_S16x128x128_S16x256x128_2_1_1_2_0_0 128 rfl rfl k
  have el : dot_S16x256x128_S16x128x128_S16x256x128_2_1_1_2_0_0.lhsIdx (ix3 b n e) ((ValueIdx.contrEquiv1 dot_S16x256x128_S16x128x128_S16x256x128_2_1_1_2_0_0 128 rfl rfl).symm k) = ix3 b n k := funext fun a => Fin.ext (by
    match a with
    | ⟨0, _⟩ => exact lhs_0 _ _
    | ⟨1, _⟩ => exact lhs_1 _ _
    | ⟨2, _⟩ => exact (lhs_2 _ _).trans hk)
  have er : dot_S16x256x128_S16x128x128_S16x256x128_2_1_1_2_0_0.rhsIdx (ix3 b n e) ((ValueIdx.contrEquiv1 dot_S16x256x128_S16x128x128_S16x256x128_2_1_1_2_0_0 128 rfl rfl).symm k) = ix3 b k e := funext fun a => Fin.ext (by
    match a with
    | ⟨0, _⟩ => exact rhs_0 _ _
    | ⟨1, _⟩ => exact (rhs_1 _ _).trans hk
    | ⟨2, _⟩ => exact rhs_2 _ _)
  rw [el, er]

/-! ## The three stages of the block's arithmetic, read at explicit coordinates -/

/-- The first weight matrix with each column divided by its clamped norm, as the block computes it: the square, the sum
    over axis 1, the square root, the clamp from below by ε₁, the repetition along axis 1, the quotient. -/
theorem l1n_read (v : FVec Ideal S16x128x128 .f32) (h1 : S16x128x128.Reduces [1] S16x128) (hφ : FKind.Formats FTy.f32)
    (hacc : (0x00000000#32 : BitVec 32) = 0x00000000#32) (h2 : S16x128.ShapeCasts S16x1x128)
    (h3 : S16x1x128.Broadcasts S16x128x128) (b : Fin 16) (d e : Fin 128) :
    (divf v (broadcastTo S16x128x128
        (maximumf (sqrt (shapeCast S16x1x128 (multiReduction .add [1] S16x128 (mulf v v) 0x00000000#32 h1 hφ hacc) h2))
          (broadcast S16x1x128 (FloatOps.ofBits (F := Ideal) .f32 0x2B8CBCCC#32))) h3) : FVec Ideal S16x128x128 .f32) (ix3 b d e)
      = Cert.Spec.l1n v b d e := by
  refine (divf_apply _ _ _).trans ?_
  unfold Cert.Spec.l1n Cert.Spec.colNorm
  refine congrArg (Ideal.div (v (ix3 b d e))) ?_
  refine (bc_col _ h3 b d e).trans ?_
  refine (maximumf_apply _ _ _).trans ?_
  refine congrArg₂ max ?_ rfl
  show Ideal.sqrt (shapeCast S16x1x128 _ h2 (ix3 b 0 e)) = _
  refine congrArg Ideal.sqrt ?_
  refine (cast_col _ h2 b e).trans ?_
  exact colsum _ h1 hφ hacc b e

/-- The input with each row scaled by the reciprocal square root of its mean square plus ε₂ and by the learned weight, as
    the block computes it: the square, the sum over axis 2, the division by 128, the addition of ε₂, the reciprocal square
    root, the repetition along axis 2, the two products. -/
theorem xn_read (v : FVec Ideal S16x256x128 .f32) (w : FVec Ideal S1x1x128 .f32) (h1 : S16x256x128.Reduces [2] S16x256)
    (hφ : FKind.Formats FTy.f32) (hacc : (0x00000000#32 : BitVec 32) = 0x00000000#32) (h2 : S16x256.ShapeCasts S16x256x1)
    (h3 : S16x256x1.Broadcasts S16x256x128) (h4 : S1x1x128.Broadcasts S16x256x128) (b : Fin 16) (n : Fin 256) (d : Fin 128) :
    (mulf (mulf v (broadcastTo S16x256x128
        (rsqrt (addf (divf (shapeCast S16x256x1 (multiReduction .add [2] S16x256 (mulf v v) 0x00000000#32 h1 hφ hacc) h2)
            (broadcast S16x256x1 (FloatOps.ofBits (F := Ideal) .f32 0x43000000#32)))
          (broadcast S16x256x1 (FloatOps.ofBits (F := Ideal) .f32 0x34000000#32)))) h3))
        (broadcastTo S16x256x128 w h4) : FVec Ideal S16x256x128 .f32) (ix3 b n d)
      = Cert.Spec.xn v (fun d => w (ix3 0 0 d)) b n d := by
  refine (mulf_apply _ _ _).trans ?_
  unfold Cert.Spec.xn
  refine congrArg₂ (· * ·) ?_ (bc_nw w h4 b n d)
  refine (mulf_apply _ _ _).trans ?_
  refine congrArg (v (ix3 b n d) * ·) ?_
  refine (bc_row _ h3 b n d).trans ?_
  unfold Cert.Spec.invRms
  show Ideal.rsqrt (Ideal.div (shapeCast S16x256x1 _ h2 (ix3 b n 0)) (Ideal.ofBits .f32 0x43000000#32)
    + Ideal.ofBits .f32 0x34000000#32) = _
  refine congrArg (fun s => Ideal.rsqrt (Ideal.div s (Ideal.ofBits .f32 0x43000000#32) + Ideal.ofBits .f32 0x34000000#32)) ?_
  refine (cast_row _ h2 b n).trans ?_
  exact rowsum _ h1 hφ hacc b n

/-- The hidden layer: the batched product of two arrays that are, entry by entry, the normalised input and the normalised
    first weight. -/
theorem hid_read (X : FVec Ideal S16x256x128 .f32) (L : FVec Ideal S16x128x128 .f32)
    (v0 : FVec Ideal S16x256x128 .f32) (v1 : FVec Ideal S16x128x128 .f32) (nw : Fin 128 → EReal)
    (hX : ∀ (b : Fin 16) (n : Fin 256) (d : Fin 128), X (ix3 b n d) = Cert.Spec.xn v0 nw b n d)
    (hL : ∀ (b : Fin 16) (d e : Fin 128), L (ix3 b d e) = Cert.Spec.l1n v1 b d e)
    (hb : FTy.bits .bf16 < FTy.bits .f32) (b : Fin 16) (n : Fin 256) (e : Fin 128) :
    matmul dot_S16x256x128_S16x128x128_S16x256x128_2_1_1_2_0_0 none (truncf .bf16 X hb) (truncf .bf16 L hb)
        (constant (F := Ideal) S16x256x128 .f32 0x00000000#32) (ix3 b n e)
      = Cert.Spec.hid v0 v1 nw b n e := by
  refine (bmm _ _ b n e).trans ?_
  unfold Cert.Spec.hid
  refine Finset.sum_congr rfl fun d _ => ?_
  exact congrArg₂ (· * ·) ((truncf_apply X hb _).trans (hX b n d)) ((truncf_apply L hb _).trans (hL b d e))

/-- The block's arithmetic on 16 samples is the specification's perceptron on a batch of 16: the second batched product
    of the activated hidden layer with the second weight, plus the input. -/
theorem pay1_eq (x0 : Vec Ideal S16x256x128 .f32) (x1 x3 : Vec Ideal S16x128x128 .f32) (x5 : Vec Ideal S1x1x128 .f32) :
    k1_pay1 (F := Ideal) x0 x1 x3 x5 = Cert.Spec.mlp (B := 16) x0 x1 x3 (fun d => x5 (ix3 0 0 d)) := by
  funext i
  obtain ⟨b, n, f, rfl⟩ : ∃ (b : Fin 16) (n : Fin 256) (f : Fin 128), i = ix3 b n f :=
    ⟨⟨(i 0).val, (i 0).isLt⟩, ⟨(i 1).val, (i 1).isLt⟩, ⟨(i 2).val, (i 2).isLt⟩, by
      funext a; match a with | ⟨0, _⟩ => rfl | ⟨1, _⟩ => rfl | ⟨2, _⟩ => rfl⟩
  rw [Cert.Spec.mlp_ix3]
  unfold k1_pay1
  simp only [shapeCast_self]
  refine (addf_apply _ _ _).trans ?_
  unfold Cert.Spec.mlpAt
  refine congrArg (· + x0 (ix3 b n f)) ?_
  refine (bmm _ _ b n f).trans ?_
  refine Finset.sum_congr rfl fun e _ => ?_
  refine congrArg₂ (· * ·) ?_ (truncf_apply (ψ := .bf16) x3 bitsLt_bf16_f32 (ix3 b e f))
  refine (truncf_apply (ψ := .bf16) _ bitsLt_bf16_f32 (ix3 b n e)).trans ?_
  refine (mulf_apply _ _ _).trans ?_
  unfold Cert.Spec.act
  have hH := hid_read _ _ x0 x1 (fun d => x5 (ix3 0 0 d))
    (fun b n d => xn_read x0 x5 reduces_S16x256x128_S16x256 (.inl rfl) rfl shapeCasts_S16x256_S16x256x1
      broadcasts_S16x256x1_S16x256x128 broadcasts_S1x1x128_S16x256x128 b n d)
    (fun b d e => l1n_read x1 reduces_S16x128x128_S16x128 (.inl rfl) rfl shapeCasts_S16x128_S16x1x128
      broadcasts_S16x1x128_S16x128x128 b d e)
    bitsLt_bf16_f32 b n e
  exact congrArg₂ (· * ·) hH (congrArg Ideal.logistic hH)

end Cert.KernelSide

end
-- ==== Proof.KernelArrays.lean ====
import proofs.«119298_j73392401154483_2_alg».proof.Proof.Gen.KernelIdeal.Frame
import proofs.«119298_j73392401154483_2_alg».proof.Proof.KernelParamsBody
import proofs.«119298_j73392401154483_2_alg».proof.Proof.KernelMlpBody
import Idealize.ShloMosaic.Lib.Pipeline.Value

noncomputable section

open scoped BigOperators

namespace Cert.KernelSide

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The linear layer: 8 row tiles by 16 column tiles -/

theorem zero2 : (![0, 0] : Fin 2 → Nat) = fun _ => 0 := funext fun a => by fin_cases a <;> rfl

/-- The index maps of the linear layer's windows, decided over its 128 grid points: A moves with the output's row tile and
    keeps all its columns; Wt and the bias move with the output's column tile and keep all their rows. -/
theorem params_index_maps : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 15 :=
  (by decide +kernel : ∀ t : Fin grid0.N, _)

/-- Every (row tile, column tile) of the output is some point's. -/
theorem params_tiles_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-- Row p of point t's block of A is row 256·(row tile) + p of A. -/
theorem params_block_a (c : Dev nD) (t : Fin cfg0.N) (x : S256x768.Idx) (k : S2048x768.Idx)
    (hk0 : (k 0).val = win0_3.index t (0 : Fin 2) * 256 + (x 0).val) (hk1 : (k 1).val = (x 1).val) :
    (iblk0 V c 0 t : Vec Ideal S256x768 .f32) x = (V c main_arg1 : S2048x768.Idx → EReal) k := by
  obtain ⟨e0, e1, -⟩ := params_index_maps t
  unfold iblk0
  rw [View.read_apply]
  show V c main_arg1 _ = V c main_arg1 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 768 + 1 * (x 1).val = (k 1).val; rw [e1, hk1]; omega

/-- Column q of point t's block of Wt is column 2048·(column tile) + q of Wt. -/
theorem params_block_w (c : Dev nD) (t : Fin cfg0.N) (x : S768x2048.Idx) (k : S768x32768.Idx)
    (hk0 : (k 0).val = (x 0).val) (hk1 : (k 1).val = win0_3.index t (1 : Fin 2) * 2048 + (x 1).val) :
    (iblk0 V c 1 t : Vec Ideal S768x2048 .f32) x = (V c main_v0 : S768x32768.Idx → EReal) k := by
  obtain ⟨-, -, e0, e1, -⟩ := params_index_maps t
  unfold iblk0
  rw [View.read_apply]
  show V c main_v0 _ = V c main_v0 _
  congr 1
  funext a
  apply Fin.ext
  match a with
  | ⟨0, _⟩ => show win0_1.index t (0 : Fin 2) * 768 + 1 * (x 0).val = (k 0).val; rw [e0, hk0]; omega
  | ⟨1, _⟩ => show win0_1.index t (1 : Fin 2) * 2048 + 1 * (x 1).val = (k 1).val; rw [e1, hk1]; omega

/-- Column q of point t's block of the bias is column 2048·(column tile) + q of the bias. -/
theorem params_block_b (c : Dev nD) (t : Fin cfg0.N) (x : S1x2048.Idx) (k : S1x32768.Idx)
    (hk0 : (k 0).val = (x 0).val) (hk1 : (k 1).val = win0_3.index t (1 : Fin 2) * 2048 + (x 1).val) :
    (iblk0 V c 2 t : Vec Ideal S1x2048 .f32) x = (V c main_v1 : S1x32768.Idx → EReal) k := by
  obtain ⟨-, -, -, -, e0, e1, -⟩ := params_index_maps t
  unfold iblk0
  rw [View.read_apply]
  show V c main_v1 _ = V c main_v1 _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 2048 + 1 * (x 1).val = (k 1).val; rw [e1, hk1]; omega

/-- A tile's entry, from blocks whose row p, column q and bias entry q are row P of A, column Q of Wt and entry Q of the bias,
    is entry (P, Q) of the linear layer. -/
theorem params_of_tile (A : S2048x768.Idx → EReal) (Wt : S768x32768.Idx → EReal) (bias : Fin 32768 → EReal)
    (x0 : S256x768.Idx → EReal) (x1 : S768x2048.Idx → EReal) (x2 : S1x2048.Idx → EReal)
    (p : Fin 256) (q : Fin 2048) (P : Fin 2048) (Q : Fin 32768)
    (h0 : ∀ k : Fin 768, x0 (ix2 p k) = A (ix2 P k)) (h1 : ∀ k : Fin 768, x1 (ix2 k q) = Wt (ix2 k Q))
    (h2 : x2 (ix2 0 q) = bias Q) :
    (∑ k : Fin 768, x0 (ix2 p k) * x1 (ix2 k q)) + x2 (ix2 0 q) = Cert.Spec.paramsAt A Wt bias P Q := by
  unfold Cert.Spec.paramsAt
  rw [h2]
  exact congrArg (· + bias Q) (Finset.sum_congr rfl fun k _ => by rw [h0 k, h1 k])

/-- What point t writes back is its tile of the linear layer of the whole arrays. -/
theorem params_flushed (c : Dev nD) (t : Fin cfg0.N) :
    (dat0 (F := Ideal) V c).flushed 3 t = ((cfg0.win 3).blk t).view.read (Elt Ideal)
      (Cert.Spec.params (V c main_arg1) (V c main_v0) (fun j => V c main_v1 (ix2 0 j))) := by
  show (cfg0.win 3).cut (grid0.coords t) ((dat0 V c).after 3 t) = _
  rw [after0_3]
  unfold out0_3
  rw [View.canon_unit_zero zero2]
  simp only [View.ld_unit_zero (S := S256x768) zero2, View.ld_unit_zero (S := S768x2048) zero2, View.ld_unit_zero (S := S1x2048) zero2]
  funext j
  rw [View.read_apply]
  have hj0 : (j 0).val < 256 := (j 0).isLt
  have hj1 : (j 1).val < 2048 := (j 1).isLt
  have hx : (win0_3.xinj (grid0.coords t) j : S256x2048.Idx) = ix2 ⟨(j 0).val, hj0⟩ ⟨(j 1).val, hj1⟩ :=
    funext fun a => by match a with | ⟨0, _⟩ => rfl | ⟨1, _⟩ => rfl
  show k0_pay1 (F := Ideal) (iblk0 V c 0 t) (iblk0 V c 1 t) (iblk0 V c 2 t) (win0_3.xinj (grid0.coords t) j)
    = Cert.Spec.paramsAt (V c main_arg1) (V c main_v0) (fun q => V c main_v1 (ix2 0 q))
      ⟨win0_3.index t (0 : Fin 2) * 256 + 1 * (j 0).val, _⟩ ⟨win0_3.index t (1 : Fin 2) * 2048 + 1 * (j 1).val, _⟩
  have key : ∀ (P : Fin 2048) (Q : Fin 32768), P.val = win0_3.index t (0 : Fin 2) * 256 + (j 0).val →
      Q.val = win0_3.index t (1 : Fin 2) * 2048 + (j 1).val →
      k0_pay1 (F := Ideal) (iblk0 V c 0 t) (iblk0 V c 1 t) (iblk0 V c 2 t) (ix2 ⟨(j 0).val, hj0⟩ ⟨(j 1).val, hj1⟩)
      = Cert.Spec.paramsAt (V c main_arg1) (V c main_v0) (fun q => V c main_v1 (ix2 0 q)) P Q := by
    intro P Q hP hQ
    rw [pay0_eq]
    exact params_of_tile _ _ _ _ _ _ ⟨(j 0).val, hj0⟩ ⟨(j 1).val, hj1⟩ P Q
      (fun k => params_block_a V c t (ix2 ⟨(j 0).val, hj0⟩ k) (ix2 P k) hP rfl)
      (fun k => params_block_w V c t (ix2 k ⟨(j 1).val, hj1⟩) (ix2 k Q) rfl hQ)
      (params_block_b V c t (ix2 0 ⟨(j 1).val, hj1⟩) (ix2 0 Q) rfl hQ)
  rw [hx]
  exact key _ _ (by show win0_3.index t (0 : Fin 2) * 256 + 1 * (j 0).val = _; omega)
    (by show win0_3.index t (1 : Fin 2) * 2048 + 1 * (j 1).val = _; omega)

/-- An index of the output is in point t's tile iff each coordinate is in the tile's range on its axis. -/
theorem params_mem_blk (t : Fin cfg0.N) (i : S2048x32768.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v2).slice (win0_3.rect t)).set ↔ _
  rw [View.set_slice_whole, Rect.mem_set_unit]
  exact Iff.rfl

/-- Entry (r, j) of the output lies in the tile (r / 256, j / 2048). -/
theorem params_cover (i : S2048x32768.Idx) :
    ∃ t : Fin cfg0.N, (cfg0.win 3).flush t = true ∧ i ∈ ((cfg0.win 3).blk t).view.set := by
  have hi0 : (i 0).val < 2048 := (i 0).isLt
  have hi1 : (i 1).val < 32768 := (i 1).isLt
  obtain ⟨t, ht⟩ := params_tiles_onto ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [params_mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

theorem final0 (c : Dev nD) :
    (dat0 (F := Ideal) V c).arrAt 3 cfg0.N
      = Cert.Spec.params (V c main_arg1) (V c main_v0) (fun j => V c main_v1 (ix2 0 j)) :=
  (dat0 (F := Ideal) V c).arrAt_eq_of_cover 3 _ (fun t _ => params_flushed V c t) params_cover

/-! ## The perceptron: 128 blocks of 16 samples -/

theorem zero3 : (![0, 0, 0] : Fin 3 → Nat) = fun _ => 0 := funext fun a => by fin_cases a <;> rfl

/-- The index maps of the perceptron's windows, decided over its 128 grid points: point t takes block t of the samples on the
    leading axis of X, L1, L2 and of the output, and the whole of the other two axes and of the norm weight. -/
theorem mlp_index_maps : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- Sample b of block t of X is sample 16·t + b of X. -/
theorem mlp_block_x (c : Dev nD) (t : Fin cfg1.N) (x : S16x256x128.Idx) (k : S2048x256x128.Idx)
    (hk0 : (k 0).val = t.val * 16 + (x 0).val) (hk1 : (k 1).val = (x 1).val) (hk2 : (k 2).val = (x 2).val) :
    (iblk1 V c 0 t : Vec Ideal S16x256x128 .f32) x = (V c main_arg0 : S2048x256x128.Idx → EReal) k := by
  obtain ⟨e0, e1, e2, -⟩ := mlp_index_maps t
  unfold iblk1
  rw [View.read_apply]
  show V c main_arg0 _ = V c main_arg0 _
  congr 1
  funext a
  apply Fin.ext
  match a with
  | ⟨0, _⟩ => show win1_0.index t (0 : Fin 3) * 16 + 1 * (x 0).val = (k 0).val; rw [e0, hk0]; omega
  | ⟨1, _⟩ => show win1_0.index t (1 : Fin 3) * 256 + 1 * (x 1).val = (k 1).val; rw [e1, hk1]; omega
  | ⟨2, _⟩ => show win1_0.index t (2 : Fin 3) * 128 + 1 * (x 2).val = (k 2).val; rw [e2, hk2]; omega

/-- Sample b of block t of L1 is sample 16·t + b of L1. -/
theorem mlp_block_l1 (c : Dev nD) (t : Fin cfg1.N) (x : S16x128x128.Idx) (k : S2048x128x128.Idx)
    (hk0 : (k 0).val = t.val * 16 + (x 0).val) (hk1 : (k 1).val = (x 1).val) (hk2 : (k 2).val = (x 2).val) :
    (iblk1 V c 1 t : Vec Ideal S16x128x128 .f32) x = (V c main_v4 : S2048x128x128.Idx → EReal) k := by
  obtain ⟨-, -, -, e0, e1, e2, -⟩ := mlp_index_maps t
  unfold iblk1
  rw [View.read_apply]
  show V c main_v4 _ = V c main_v4 _
  congr 1
  funext a
  apply Fin.ext
  match a with
  | ⟨0, _⟩ => show win1_1.index t (0 : Fin 3) * 16 + 1 * (x 0).val = (k 0).val; rw [e0, hk0]; omega
  | ⟨1, _⟩ => show win1_1.index t (1 : Fin 3) * 128 + 1 * (x 1).val = (k 1).val; rw [e1, hk1]; omega
  | ⟨2, _⟩ => show win1_1.index t (2 : Fin 3) * 128 + 1 * (x 2).val = (k 2).val; rw [e2, hk2]; omega

/-- Sample b of block t of L2 is sample 16·t + b of L2. -/
theorem mlp_block_l2 (c : Dev nD) (t : Fin cfg1.N) (x : S16x128x128.Idx) (k : S2048x128x128.Idx)
    (hk0 : (k 0).val = t.val * 16 + (x 0).val) (hk1 : (k 1).val = (x 1).val) (hk2 : (k 2).val = (x 2).val) :
    (iblk1 V c 2 t : Vec Ideal S16x128x128 .f32) x = (V c main_v6 : S2048x128x128.Idx → EReal) k := by
  obtain ⟨-, -, -, -, -, -, e0, e1, e2, -⟩ := mlp_index_maps t
  unfold iblk1
  rw [View.read_apply]
  show V c main_v6 _ = V c main_v6 _
  congr 1
  funext a
  apply Fin.ext
  match a with
  | ⟨0, _⟩ => show win1_2.index t (0 : Fin 3) * 16 + 1 * (x 0).val = (k 0).val; rw [e0, hk0]; omega
  | ⟨1, _⟩ => show win1_2.index t (1 : Fin 3) * 128 + 1 * (x 1).val = (k 1).val; rw [e1, hk1]; omega
  | ⟨2, _⟩ => show win1_2.index t (2 : Fin 3) * 128 + 1 * (x 2).val = (k 2).val; rw [e2, hk2]; omega

/-- Every point reads the whole norm weight. -/
theorem mlp_block_nw (c : Dev nD) (t : Fin cfg1.N) (x : S1x1x128.Idx) :
    (iblk1 V c 3 t : Vec Ideal S1x1x128 .f32) x = (V c main_v7 : S1x1x128.Idx → EReal) x := by
  obtain ⟨-, -, -, -, -, -, -, -, -, e0, e1, e2, -⟩ := mlp_index_maps t
  unfold iblk1
  rw [View.read_apply]
  show V c main_v7 _ = V c main_v7 _
  congr 1
  funext a
  apply Fin.ext
  match a with
  | ⟨0, _⟩ => show win1_3.index t (0 : Fin 3) * 1 + 1 * (x 0).val = (x 0).val; rw [e0]; omega
  | ⟨1, _⟩ => show win1_3.index t (1 : Fin 3) * 1 + 1 * (x 1).val = (x 1).val; rw [e1]; omega
  | ⟨2, _⟩ => show win1_3.index t (2 : Fin 3) * 128 + 1 * (x 2).val = (x 2).val; rw [e2]; omega

/-- What point t writes back is block t of the perceptron of the whole arrays. -/
theorem mlp_flushed (c : Dev nD) (t : Fin cfg1.N) :
    (dat1 (F := Ideal) V c).flushed 4 t = ((cfg1.win 4).blk t).view.read (Elt Ideal)
      (Cert.Spec.mlp (B := 2048) (V c main_arg0) (V c main_v4) (V c main_v6) (fun d => V c main_v7 (ix3 0 0 d))) := by
  show (cfg1.win 4).cut (grid1.coords t) ((dat1 V c).after 4 t) = _
  rw [after1_4]
  unfold out1_4
  rw [View.canon_unit_zero zero3]
  simp only [View.ld_unit_zero (S := S16x256x128) zero3, View.ld_unit_zero (S := S16x128x128) zero3, View.ld_unit_zero (S := S1x1x128) zero3]
  rw [pay1_eq]
  obtain ⟨-, -, -, -, -, -, -, -, -, -, -, -, e0, e1, e2⟩ := mlp_index_maps t
  have hN : cfg1.N = 128 := N_1
  have ht : t.val < 128 := hN ▸ t.isLt
  funext j
  rw [View.read_apply]
  have hj0 : (j 0).val < 16 := (j 0).isLt
  have hj1 : (j 1).val < 256 := (j 1).isLt
  have hj2 : (j 2).val < 128 := (j 2).isLt
  show Cert.Spec.mlpAt (B := 16) (iblk1 V c 0 t) (iblk1 V c 1 t) (iblk1 V c 2 t) (fun d => iblk1 V c 3 t (ix3 0 0 d))
      ⟨(j 0).val, hj0⟩ ⟨(j 1).val, hj1⟩ ⟨(j 2).val, hj2⟩
    = Cert.Spec.mlpAt (B := 2048) (V c main_arg0) (V c main_v4) (V c main_v6) (fun d => V c main_v7 (ix3 0 0 d))
      ⟨win1_4.index t (0 : Fin 3) * 16 + 1 * (j 0).val, _⟩ ⟨win1_4.index t (1 : Fin 3) * 256 + 1 * (j 1).val, _⟩ ⟨win1_4.index t (2 : Fin 3) * 128 + 1 * (j 2).val, _⟩
  have hnw : (fun d : Fin 128 => (iblk1 V c 3 t : Vec Ideal S1x1x128 .f32) (ix3 0 0 d)) = fun d => V c main_v7 (ix3 0 0 d) :=
    funext fun d => mlp_block_nw V c t _
  have key : ∀ (b' : Fin 2048) (n : Fin 256) (f : Fin 128), b'.val = t.val * 16 + (j 0).val → n.val = (j 1).val → f.val = (j 2).val →
      Cert.Spec.mlpAt (B := 16) (iblk1 V c 0 t) (iblk1 V c 1 t) (iblk1 V c 2 t) (fun d => iblk1 V c 3 t (ix3 0 0 d))
        ⟨(j 0).val, hj0⟩ ⟨(j 1).val, hj1⟩ ⟨(j 2).val, hj2⟩
      = Cert.Spec.mlpAt (B := 2048) (V c main_arg0) (V c main_v4) (V c main_v6) (fun d => V c main_v7 (ix3 0 0 d)) b' n f := by
    intro b' n f hb hn hf
    obtain rfl : n = ⟨(j 1).val, hj1⟩ := Fin.ext hn
    obtain rfl : f = ⟨(j 2).val, hj2⟩ := Fin.ext hf
    rw [hnw]
    exact Cert.Spec.mlpAt_congr _ _ _ _ _ _ _ ⟨(j 0).val, hj0⟩ b'
      (fun n d => mlp_block_x V c t (ix3 ⟨(j 0).val, hj0⟩ n d) (ix3 b' n d) hb rfl rfl)
      (fun d e => mlp_block_l1 V c t (ix3 ⟨(j 0).val, hj0⟩ d e) (ix3 b' d e) hb rfl rfl)
      (fun e f => mlp_block_l2 V c t (ix3 ⟨(j 0).val, hj0⟩ e f) (ix3 b' e f) hb rfl rfl) _ _
  exact key _ _ _ (by show win1_4.index t (0 : Fin 3) * 16 + 1 * (j 0).val = _; rw [e0]; omega)
    (by show win1_4.index t (1 : Fin 3) * 256 + 1 * (j 1).val = _; rw [e1]; omega)
    (by show win1_4.index t (2 : Fin 3) * 128 + 1 * (j 2).val = _; rw [e2]; omega)

/-- An index of the output is in point t's block iff each coordinate is in the block's range on its axis. -/
theorem mlp_mem_blk (t : Fin cfg1.N) (i : S2048x256x128.Idx) :
    i ∈ ((cfg1.win 4).blk t).view.set ↔ ∀ a : Fin 3, win1_4.index t a * S16x256x128.size a ≤ (i a).val
      ∧ (i a).val < win1_4.index t a * S16x256x128.size a + S16x256x128.size a := by
  show i ∈ ((View.whole main_v8).slice (win1_4.rect t)).set ↔ _
  rw [View.set_slice_whole, Rect.mem_set_unit]
  exact Iff.rfl

/-- Sample b of the output lies in the block of point b / 16. -/
theorem mlp_cover (i : S2048x256x128.Idx) :
    ∃ t : Fin cfg1.N, (cfg1.win 4).flush t = true ∧ i ∈ ((cfg1.win 4).blk t).view.set := by
  have hi0 : (i 0).val < 2048 := (i 0).isLt
  have hi1 : (i 1).val < 256 := (i 1).isLt
  have hi2 : (i 2).val < 128 := (i 2).isLt
  have hN : cfg1.N = 128 := N_1
  obtain ⟨t, ht⟩ : ∃ t : Fin cfg1.N, t.val = (i 0).val / 16 := ⟨⟨(i 0).val / 16, by rw [hN]; omega⟩, rfl⟩
  obtain ⟨-, -, -, -, -, -, -, -, -, -, -, -, e0, e1, e2⟩ := mlp_index_maps t
  refine ⟨t, flush1_4 t, ?_⟩
  rw [mlp_mem_blk]
  intro a
  match a with
  | ⟨0, _⟩ => show win1_4.index t (0 : Fin 3) * 16 ≤ (i 0).val ∧ (i 0).val < win1_4.index t (0 : Fin 3) * 16 + 16; rw [e0, ht]; omega
  | ⟨1, _⟩ => show win1_4.index t (1 : Fin 3) * 256 ≤ (i 1).val ∧ (i 1).val < win1_4.index t (1 : Fin 3) * 256 + 256; rw [e1]; omega
  | ⟨2, _⟩ => show win1_4.index t (2 : Fin 3) * 128 ≤ (i 2).val ∧ (i 2).val < win1_4.index t (2 : Fin 3) * 128 + 128; rw [e2]; omega

theorem final1 (c : Dev nD) :
    (dat1 (F := Ideal) V c).arrAt 4 cfg1.N
      = Cert.Spec.mlp (B := 2048) (V c main_arg0) (V c main_v4) (V c main_v6) (fun d => V c main_v7 (ix3 0 0 d)) :=
  (dat1 (F := Ideal) V c).arrAt_eq_of_cover 4 _ (fun t _ => mlp_flushed V c t) mlp_cover

end Cert.KernelSide

end
-- ==== Proof.RefParams.lean ====
/-
  The reference's linear layer, read at an index: the product of the input rows with the transposed weight plus the
  bias repeated down the rows is the specification's `params` of the input, the transposed weight and the bias.
-/
import proofs.«119298_j73392401154483_2_alg».proof.Proof.Gen.ReferenceIdeal.Read
import proofs.«119298_j73392401154483_2_alg».proof.Proof.Spec

noncomputable section

open scoped BigOperators

namespace Cert.RefSide

open Idealize.ShloMosaic Idealize.ShloMosaic.ValueIdx Cert.ReferenceIdeal Cert.ReferenceIdeal.Read

theorem lidx1_ix (p : Fin 2048) (j : Fin 32768) (k : Fin 768) : lidx_main_v1 (ix2 p j) k = ix2 p k :=
  funext fun a => Fin.ext (by match a with | ⟨0, _⟩ => rfl | ⟨1, _⟩ => rfl)

theorem ridx1_ix (p : Fin 2048) (j : Fin 32768) (k : Fin 768) : ridx_main_v1 (ix2 p j) k = ix2 k j :=
  funext fun a => Fin.ext (by match a with | ⟨0, _⟩ => rfl | ⟨1, _⟩ => rfl)

theorem idx23_ix (p : Fin 2048) (j : Fin 32768) : idx_main_v2 (idx_main_v3 (ix2 p j)) = ix1 j :=
  funext fun a => Fin.ext (by match a with | ⟨0, _⟩ => rfl)

/-- The reference's weights-generating layer is `params` of the input, the transposed weight (kept as the
    reference's own first stage) and the bias. -/
theorem ref_params (x1 : (⟨S2048x768, .f32⟩ : BufTy).Contents (Elt Ideal)) (x2 : (⟨S32768x768, .f32⟩ : BufTy).Contents (Elt Ideal))
    (x3 : (⟨S32768, .f32⟩ : BufTy).Contents (Elt Ideal)) :
    val_main_v4 (F := Ideal) x1 x2 x3 = Cert.Spec.params x1 (val_main_v0 (F := Ideal) x2) (fun j => x3 (ix1 j)) := by
  funext i
  obtain ⟨p, j, rfl⟩ : ∃ (p : Fin 2048) (j : Fin 32768), i = ix2 p j :=
    ⟨⟨(i 0).val, (i 0).isLt⟩, ⟨(i 1).val, (i 1).isLt⟩, by funext a; match a with | ⟨0, _⟩ => rfl | ⟨1, _⟩ => rfl⟩
  rw [Cert.Spec.params_ix2, val_main_v4_apply, val_main_v1_apply, val_main_v3_apply, val_main_v2_apply, idx23_ix, Ideal.addf_def]
  unfold Cert.Spec.paramsAt
  refine congrArg (· + x3 (ix1 j)) (Finset.sum_congr rfl fun k _ => ?_)
  rw [lidx1_ix, ridx1_ix]

end Cert.RefSide

end
-- ==== Proof.Bridge.lean ====
/-
  The kernel program's result as the specification's perceptron of the launch arrays, with the two per-sample weight
  arrays spelt as the REFERENCE's own stages: both programs cut the linear layer's output in the same two halves
  and reshape each the same way, so once the first region's output is known to be the reference's linear layer
  (`mid_params_eq`) the weight arrays of the two programs are the same terms.
-/
import proofs.«119298_j73392401154483_2_alg».proof.Proof.KernelHost
import proofs.«119298_j73392401154483_2_alg».proof.Proof.KernelArrays
import proofs.«119298_j73392401154483_2_alg».proof.Proof.RefParams
import Idealize.ShloMosaic.Lib.ValueLayout

noncomputable section

namespace Cert.KernelSide

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A vector of 128 entries cast to [1,1,128] reads, at (0, 0, d), its entry d. -/
theorem normWeight_cast_apply (x : (⟨1, ![128]⟩ : Shape).Idx → EReal) (h : (⟨1, ![128]⟩ : Shape).ShapeCasts ⟨3, ![1, 1, 128]⟩)
    (d : Fin 128) : shapeCast ⟨3, ![1, 1, 128]⟩ x h (ix3 (0 : Fin 1) (0 : Fin 1) d) = x (ix1 d) :=
  shapeCast_apply x h _ _ (by
    rw [Shape.rowMajor_val_three, Shape.rowMajor_val_one]
    show d.val = (0 * 1 + 0) * 128 + d.val
    omega)

/-- The first region's output is the reference's linear layer of the same launch arrays. -/
theorem mid_params_eq (c : Dev nD) :
    W2 m ρ c (Proc.devRef .tc main_v2)
      = Cert.ReferenceIdeal.Read.val_main_v4 (F := Ideal) (m ((c : Thread nD τ).loc main_arg1))
          (m ((c : Thread nD τ).loc main_arg2)) (m ((c : Thread nD τ).loc main_arg3)) := by
  rw [mid_params, final0 (V1 m ρ) c, entry0_input, entry0_weight, entry0_bias, Cert.RefSide.ref_params]
  refine congrArg (Cert.Spec.params _ _) (funext fun j => ?_)
  exact shapeCast_a_1a_apply _ _ (0 : Fin 1) j

/-- The second region's first weight array is the reference's. -/
theorem layer1_eq (c : Dev nD) :
    V3 m ρ c main_v4
      = Cert.ReferenceIdeal.Read.val_main_v7 (F := Ideal) (m ((c : Thread nD τ).loc main_arg1))
          (m ((c : Thread nD τ).loc main_arg2)) (m ((c : Thread nD τ).loc main_arg3)) := by
  rw [entry1_layer1, mid_params_eq]
  rfl

/-- The second region's second weight array is the reference's. -/
theorem layer2_eq (c : Dev nD) :
    V3 m ρ c main_v6
      = Cert.ReferenceIdeal.Read.val_main_v8 (F := Ideal) (m ((c : Thread nD τ).loc main_arg1))
          (m ((c : Thread nD τ).loc main_arg2)) (m ((c : Thread nD τ).loc main_arg3)) := by
  rw [entry1_layer2, mid_params_eq]
  rfl

/-- The kernel program's result array. -/
theorem kernel_result (c : Dev nD) :
    W4 m ρ c (Proc.devRef .tc main_v8)
      = Cert.Spec.mlp (B := 2048) (m ((c : Thread nD τ).loc main_arg0))
          (Cert.ReferenceIdeal.Read.val_main_v7 (F := Ideal) (m ((c : Thread nD τ).loc main_arg1))
            (m ((c : Thread nD τ).loc main_arg2)) (m ((c : Thread nD τ).loc main_arg3)))
          (Cert.ReferenceIdeal.Read.val_main_v8 (F := Ideal) (m ((c : Thread nD τ).loc main_arg1))
            (m ((c : Thread nD τ).loc main_arg2)) (m ((c : Thread nD τ).loc main_arg3)))
          (fun d => m ((c : Thread nD τ).loc main_arg4) (ix1 d)) := by
  rw [end_result, final1 (V3 m ρ) c, entry1_input, layer1_eq, layer2_eq, entry1_normWeight, mid_normWeight]
  refine congrArg (Cert.Spec.mlp (B := 2048) _ _ _) (funext fun d => ?_)
  exact normWeight_cast_apply _ _ d

end Cert.KernelSide

end
-- ==== Proof.RefMlp.lean ====
/-
  The reference's perceptron, read at an index. Stage by stage — the column norms of the first weight matrix, the
  normalised columns, the reciprocal root-mean-square of each input row, the weighted input, the hidden layer, its
  activation h · (1 / (1 + exp (-h))) = h · logistic h, the second product and the residual — the reference's composed
  term at (b, n, f) is the specification's `mlpAt` of the input, the two weight arrays (kept as the reference's own
  stages of the linear layer) and the norm weight.
-/
import proofs.«119298_j73392401154483_2_alg».proof.Proof.Gen.ReferenceIdeal.Read
import proofs.«119298_j73392401154483_2_alg».proof.Proof.Spec

noncomputable section

open scoped BigOperators

namespace Cert.RefSide

open Idealize.ShloMosaic Idealize.ShloMosaic.ValueIdx Cert.ReferenceIdeal Cert.ReferenceIdeal.Read

/-! Index equations: the composed index functions of the reference's stages, at explicit coordinates. -/

theorem idx10_ix (b : Fin 2048) (e k : Fin 128) : idx_main_v10 (ix2 b e) k = ix3 b k e :=
  funext fun a => Fin.ext (by match a with | ⟨0, _⟩ => rfl | ⟨1, _⟩ => rfl | ⟨2, _⟩ => rfl)

theorem idx11_ix (b : Fin 2048) (e : Fin 128) : idx_main_v11 (ix3 b (0 : Fin 1) e) = ix2 b e :=
  funext fun a => Fin.ext (by match a with | ⟨0, _⟩ => rfl | ⟨1, _⟩ => rfl)

theorem idx15_ix (b : Fin 2048) (d e : Fin 128) : idx_main_v15 (ix3 b d e) = ix3 b (0 : Fin 1) e :=
  funext fun a => Fin.ext (by match a with | ⟨0, _⟩ => rfl | ⟨1, _⟩ => rfl | ⟨2, _⟩ => rfl)

theorem idx18_ix (b : Fin 2048) (n : Fin 256) (k : Fin 128) : idx_main_v18 (ix2 b n) k = ix3 b n k :=
  funext fun a => Fin.ext (by match a with | ⟨0, _⟩ => rfl | ⟨1, _⟩ => rfl | ⟨2, _⟩ => rfl)

theorem idx19_ix (b : Fin 2048) (n : Fin 256) : idx_main_v19 (ix3 b n (0 : Fin 1)) = ix2 b n :=
  funext fun a => Fin.ext (by match a with | ⟨0, _⟩ => rfl | ⟨1, _⟩ => rfl)

theorem idx25_ix (b : Fin 2048) (n : Fin 256) (d : Fin 128) : idx_main_v25 (ix3 b n d) = ix3 b n (0 : Fin 1) :=
  funext fun a => Fin.ext (by match a with | ⟨0, _⟩ => rfl | ⟨1, _⟩ => rfl | ⟨2, _⟩ => rfl)

theorem idx2728_ix (b : Fin 2048) (n : Fin 256) (d : Fin 128) : idx_main_v27 (idx_main_v28 (ix3 b n d)) = ix1 d :=
  funext fun a => Fin.ext (by match a with | ⟨0, _⟩ => rfl)

theorem lidx30_ix (b : Fin 2048) (n : Fin 256) (e k : Fin 128) : lidx_main_v30 (ix3 b n e) k = ix3 b n k :=
  funext fun a => Fin.ext (by match a with | ⟨0, _⟩ => rfl | ⟨1, _⟩ => rfl | ⟨2, _⟩ => rfl)

theorem ridx30_ix (b : Fin 2048) (n : Fin 256) (e k : Fin 128) : ridx_main_v30 (ix3 b n e) k = ix3 b k e :=
  funext fun a => Fin.ext (by match a with | ⟨0, _⟩ => rfl | ⟨1, _⟩ => rfl | ⟨2, _⟩ => rfl)

theorem lidx32_ix (b : Fin 2048) (n : Fin 256) (f k : Fin 128) : lidx_main_v32 (ix3 b n f) k = ix3 b n k :=
  funext fun a => Fin.ext (by match a with | ⟨0, _⟩ => rfl | ⟨1, _⟩ => rfl | ⟨2, _⟩ => rfl)

theorem ridx32_ix (b : Fin 2048) (n : Fin 256) (f k : Fin 128) : ridx_main_v32 (ix3 b n f) k = ix3 b k f :=
  funext fun a => Fin.ext (by match a with | ⟨0, _⟩ => rfl | ⟨1, _⟩ => rfl | ⟨2, _⟩ => rfl)

/-- The clamped Euclidean norm of column e of the first weight matrix of sample b. -/
theorem colnorm_ref (x1 : (⟨S2048x768, .f32⟩ : BufTy).Contents (Elt Ideal)) (x2 : (⟨S32768x768, .f32⟩ : BufTy).Contents (Elt Ideal)) (x3 : (⟨S32768, .f32⟩ : BufTy).Contents (Elt Ideal)) (b : Fin 2048) (e : Fin 128) :
    val_main_v14 (F := Ideal) x1 x2 x3 (ix3 b (0 : Fin 1) e)
      = Cert.Spec.colNorm (B := 2048) (val_main_v7 (F := Ideal) x1 x2 x3) b e := by
  rw [val_main_v14_apply, val_main_v12_apply, val_main_v11_apply, val_main_v13_apply, val_main_cst_0_apply, idx11_ix,
    val_main_v10_apply, val_main_cst_apply]
  simp only [val_main_v9_apply, idx10_ix, Ideal.mulf_def, Ideal.hostUnary_sqrt_def, Ideal.maximumf_def, Ideal.ofBits_def,
    Ideal.ofBits_zero_f32, zero_add]
  rfl

/-- The first weight matrix with every column divided by its clamped norm. -/
theorem l1n_ref (x1 : (⟨S2048x768, .f32⟩ : BufTy).Contents (Elt Ideal)) (x2 : (⟨S32768x768, .f32⟩ : BufTy).Contents (Elt Ideal)) (x3 : (⟨S32768, .f32⟩ : BufTy).Contents (Elt Ideal)) (b : Fin 2048) (d e : Fin 128) :
    val_main_v16 (F := Ideal) x1 x2 x3 (ix3 b d e)
      = Cert.Spec.l1n (B := 2048) (val_main_v7 (F := Ideal) x1 x2 x3) b d e := by
  rw [val_main_v16_apply, val_main_v15_apply, idx15_ix, colnorm_ref, Ideal.hostDivf_def]
  rfl

/-- The reciprocal root-mean-square of row n of sample b. -/
theorem invrms_ref (x0 : (⟨S2048x256x128, .f32⟩ : BufTy).Contents (Elt Ideal)) (b : Fin 2048) (n : Fin 256) :
    val_main_v24 (F := Ideal) x0 (ix3 b n (0 : Fin 1)) = Cert.Spec.invRms (B := 2048) x0 b n := by
  rw [val_main_v24_apply, val_main_v23_apply, val_main_v21_apply, val_main_v19_apply, val_main_v20_apply, val_main_v22_apply,
    val_main_cst_2_apply, val_main_cst_3_apply, idx19_ix, val_main_v18_apply, val_main_cst_1_apply]
  simp only [val_main_v17_apply, idx18_ix, Ideal.mulf_def, Ideal.hostUnary_rsqrt_def, Ideal.hostDivf_def, Ideal.addf_def,
    Ideal.ofBits_def, Ideal.ofBits_zero_f32, zero_add]
  rfl

/-- The normalised, weighted input. -/
theorem xn_ref (x0 : (⟨S2048x256x128, .f32⟩ : BufTy).Contents (Elt Ideal)) (x4 : (⟨S128, .f32⟩ : BufTy).Contents (Elt Ideal)) (b : Fin 2048) (n : Fin 256) (d : Fin 128) :
    val_main_v29 (F := Ideal) x0 x4 (ix3 b n d) = Cert.Spec.xn (B := 2048) x0 (fun d => x4 (ix1 d)) b n d := by
  rw [val_main_v29_apply, val_main_v26_apply, val_main_v25_apply, idx25_ix, invrms_ref, val_main_v28_apply, val_main_v27_apply,
    idx2728_ix]
  simp only [Ideal.mulf_def]
  rfl

/-- The hidden layer before its activation. -/
theorem hid_ref (x0 : (⟨S2048x256x128, .f32⟩ : BufTy).Contents (Elt Ideal)) (x1 : (⟨S2048x768, .f32⟩ : BufTy).Contents (Elt Ideal)) (x2 : (⟨S32768x768, .f32⟩ : BufTy).Contents (Elt Ideal)) (x3 : (⟨S32768, .f32⟩ : BufTy).Contents (Elt Ideal)) (x4 : (⟨S128, .f32⟩ : BufTy).Contents (Elt Ideal)) (b : Fin 2048) (n : Fin 256) (e : Fin 128) :
    val_main_v30 (F := Ideal) x0 x1 x2 x3 x4 (ix3 b n e)
      = Cert.Spec.hid (B := 2048) x0 (val_main_v7 (F := Ideal) x1 x2 x3) (fun d => x4 (ix1 d)) b n e := by
  rw [val_main_v30_apply]
  unfold Cert.Spec.hid
  refine Finset.sum_congr rfl fun k _ => ?_
  rw [lidx30_ix, ridx30_ix, xn_ref, l1n_ref]

/-- The word 0x3F800000 is the number one. -/
theorem ofBits_one_f32 : Ideal.ofBits .f32 0x3F800000#32 = 1 := IdealRules.sign_bit.ideal_onePat .f32

/-- The activation: the reference spells the logistic function as 1 / (1 + exp (-h)). -/
theorem act_ref (x0 : (⟨S2048x256x128, .f32⟩ : BufTy).Contents (Elt Ideal)) (x1 : (⟨S2048x768, .f32⟩ : BufTy).Contents (Elt Ideal)) (x2 : (⟨S32768x768, .f32⟩ : BufTy).Contents (Elt Ideal)) (x3 : (⟨S32768, .f32⟩ : BufTy).Contents (Elt Ideal)) (x4 : (⟨S128, .f32⟩ : BufTy).Contents (Elt Ideal)) (b : Fin 2048) (n : Fin 256) (e : Fin 128) :
    val_main_v31 (F := Ideal) x0 x1 x2 x3 x4 (ix3 b n e)
      = Cert.Spec.act (Cert.Spec.hid (B := 2048) x0 (val_main_v7 (F := Ideal) x1 x2 x3) (fun d => x4 (ix1 d)) b n e) := by
  rw [val_main_v31_apply, val_main_call0_v5_apply, val_main_call0_v4_apply, val_main_call0_cst_0_apply, val_main_call0_v3_apply,
    val_main_call0_v2_apply, val_main_call0_cst_apply, val_main_call0_v1_apply, val_main_call0_v0_apply, hid_ref]
  simp only [Ideal.mulf_def, Ideal.hostDivf_def, Ideal.addf_def, Ideal.hostUnary_exp_def, Ideal.hostNegf_def, Ideal.negf_def,
    Ideal.ofBits_def, ofBits_one_f32]
  rfl

theorem ref_mlp (x0 : (⟨S2048x256x128, .f32⟩ : BufTy).Contents (Elt Ideal)) (x1 : (⟨S2048x768, .f32⟩ : BufTy).Contents (Elt Ideal))
    (x2 : (⟨S32768x768, .f32⟩ : BufTy).Contents (Elt Ideal)) (x3 : (⟨S32768, .f32⟩ : BufTy).Contents (Elt Ideal))
    (x4 : (⟨S128, .f32⟩ : BufTy).Contents (Elt Ideal)) :
    val_main_v33 (F := Ideal) x0 x1 x2 x3 x4
      = Cert.Spec.mlp (B := 2048) x0 (val_main_v7 (F := Ideal) x1 x2 x3) (val_main_v8 (F := Ideal) x1 x2 x3) (fun d => x4 (ix1 d)) := by
  funext i
  obtain ⟨b, n, f, rfl⟩ : ∃ (b : Fin 2048) (n : Fin 256) (f : Fin 128), i = ix3 b n f :=
    ⟨⟨(i 0).val, (i 0).isLt⟩, ⟨(i 1).val, (i 1).isLt⟩, ⟨(i 2).val, (i 2).isLt⟩, by
      funext a; match a with | ⟨0, _⟩ => rfl | ⟨1, _⟩ => rfl | ⟨2, _⟩ => rfl⟩
  rw [Cert.Spec.mlp_ix3, val_main_v33_apply, val_main_v32_apply, Ideal.addf_def]
  unfold Cert.Spec.mlpAt
  refine congrArg (· + x0 (ix3 b n f)) (Finset.sum_congr rfl fun k _ => ?_)
  rw [lidx32_ix, ridx32_ix, act_ref]

end Cert.RefSide

end
-- ==== Proof.lean ====
/-
  The equivalence, on the extended reals, of a two-kernel network head and its plain reference.

  Both programs compute, for a batch of 2048 samples, (1) a linear layer that generates each sample's two 128 by 128
  weight matrices from a 768-vector, params = patches · Wᵀ + bias, and (2) a per-sample perceptron on 256 rows of 128
  features: every column of the first matrix divided by its Euclidean norm (clamped below by 1e-12), every input row
  scaled by the reciprocal root of its mean square (plus 2⁻²³) and by a learned weight, the hidden row h ↦ h · logistic h,
  the second matrix, and the input added back.

  The kernel program does (1) in one pallas_call tiled 256 by 2048 over the output and (2) in another, sixteen samples to
  a block; the reference does both on whole arrays. On the extended reals a rounding to bf16 is the identity, a product
  accumulated from zero is the plain sum of products, and a lane sum is the plain sum, so block by block the kernels
  compute exactly the reference's entries: nothing is re-associated or distributed, and the precondition (finite inputs)
  is never used. Entry (b, n, f) of the perceptron reads only sample b (`Cert.Spec.mlpAt_congr`), which is what lets a
  block of sixteen samples stand for the whole batch.

  Modules: Spec (the two layers as index-by-index functions), KernelParamsBody / KernelMlpBody (each kernel body's
  arithmetic at an index), KernelArrays (from blocks to each region's whole output array), KernelHost (what the host
  operations between the regions hand over), KernelRun (the kernel program's run with its result named), RefParams /
  RefMlp (the reference's stages read at an index), Bridge (the kernel's result in the reference's terms).
-/
import proofs.«119298_j73392401154483_2_alg».proof.Defs
import proofs.«119298_j73392401154483_2_alg».proof.Proof.Gen.Kernel
import proofs.«119298_j73392401154483_2_alg».proof.Proof.Gen.Kernel.Frame
import proofs.«119298_j73392401154483_2_alg».proof.Proof.Gen.KernelIdeal
import proofs.«119298_j73392401154483_2_alg».proof.Proof.Gen.KernelIdeal.Frame
import proofs.«119298_j73392401154483_2_alg».proof.Proof.Gen.ReferenceIdeal
import proofs.«119298_j73392401154483_2_alg».proof.Proof.Gen.ReferenceIdeal.Run
import proofs.«119298_j73392401154483_2_alg».proof.Proof.Gen.ReferenceIdeal.Read
import proofs.«119298_j73392401154483_2_alg».proof.Proof.Gen.Pre_finite_inputs
import proofs.«119298_j73392401154483_2_alg».proof.Proof.KernelRun
import proofs.«119298_j73392401154483_2_alg».proof.Proof.Bridge
import proofs.«119298_j73392401154483_2_alg».proof.Proof.RefMlp
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program ends with its result at the perceptron of the launch arrays, the weight arrays
    spelt as the reference's stages of the linear layer. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v8)
          = Cert.Spec.mlp (B := 2048) (m ((c.tc : Thread Cert.KernelIdeal.nD Cert.KernelIdeal.τ).loc Cert.KernelIdeal.main_arg0))
              (Cert.ReferenceIdeal.Read.val_main_v7 (F := Ideal)
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3)))
              (Cert.ReferenceIdeal.Read.val_main_v8 (F := Ideal)
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3)))
              (fun d => m ((c.tc : Thread Cert.KernelIdeal.nD Cert.KernelIdeal.τ).loc Cert.KernelIdeal.main_arg4) (ix1 d))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans (Cert.KernelSide.kernel_result m ρ c), (h c).2⟩)
    (Cert.KernelSide.run_result (F := Ideal) m ρ)

/-- From memories agreeing on the arguments both programs end with the same result array: the kernel program's
    run has it at the perceptron of the launch arrays, and the reference's composed term is that perceptron stage by
    stage. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.RefSide.ref_mlp, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
